-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x5 : Shape := ⟨2, ![50000, 5]⟩
abbrev S2x800000 : Shape := ⟨2, ![2, 800000]⟩
abbrev S50000 : Shape := ⟨1, ![50000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S_ : Shape := ⟨0, ![]⟩

class Facts : Prop where
  bcast_S_S50000x5 : S_.BroadcastsInDim S50000x5 (![] : Fin 0 → Fin S50000x5.rank)
  reducesTo_S50000x5_S_d0_1 : S50000x5.ReducesTo [0, 1] S_
  h_S_ : 0 < S_.numel
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg9 : FVec F S128x256 .f32) (main_arg10 : FVec F S256 .f32) (main_arg11 : FVec F S256x10 .f32) (main_arg12 : FVec F S10 .f32) (main_v33 : IVec S_ 1) : IVec S_ 1 :=
  let main_v34 : FVec F S128x256 .f32 := Host.absf main_arg9
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x10 .f32 := Host.absf main_arg11
  let main_cst_16 : FVec F S_ .f32 := constant S_ .f32 0x7F800000#32
  let main_v45 : FVec F S256x10 .f32 := broadcastInDim S256x10 ![] bcast_S_S256x10 main_cst_16
  let main_v46 : IVec S256x10 1 := cmpf .olt main_v44 main_v45
  let main_c_17 : IVec S_ 1 := constantI S_ 1 1#1
  let main_v47 : IVec S_ 1 := (fun x v => Host.reduce IntOp.andi x v reducesTo_S256x10_S_d0_1 h_S_) main_v46 main_c_17
  let main_v48 : IVec S_ 1 := andi main_v43 main_v47
  let main_v49 : FVec F S10 .f32 := Host.absf main_arg12
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg6 : FVec F S64 .f32) (main_arg7 : FVec F S64x128 .f32) (main_arg8 : FVec F S128 .f32) (main_arg9 : FVec F S128x256 .f32) (main_arg10 : FVec F S256 .f32) (main_arg11 : FVec F S256x10 .f32) (main_arg12 : FVec F S10 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x5 .f32) (main_arg1 : IVec S2x800000 32) (main_arg2 : IVec S50000 32) (main_arg3 : FVec F S5x32 .f32) (main_arg4 : FVec F S32 .f32) (main_arg5 : FVec F S32x64 .f32) (main_arg6 : FVec F S64 .f32) (main_arg7 : FVec F S64x128 .f32) (main_arg8 : FVec F S128 .f32) (main_arg9 : FVec F S128x256 .f32) (main_arg10 : FVec F S256 .f32) (main_arg11 : FVec F S256x10 .f32) (main_arg12 : FVec F S10 .f32) : IVec S_ 1 :=
  let main_v0 : FVec F S50000x5 .f32 := Host.absf main_arg0
  let main_cst : FVec F S_ .f32 := constant S_ .f32 0x7F800000#32
  let main_v1 : FVec F S50000x5 .f32 := broadcastInDim S50000x5 ![] bcast_S_S50000x5 main_cst
  let main_v2 : IVec S50000x5 1 := cmpf .olt main_v0 main_v1
  let main_c : IVec S_ 1 := constantI S_ 1 1#1
  let main_v3 : IVec S_ 1 := (fun x v => Host.reduce IntOp.andi x v reducesTo_S50000x5_S_d0_1 h_S_) main_v2 main_c
  let main_v4 : FVec F S5x32 .f32 := Host.absf main_arg3
  let main_cst_0 : FVec F S_ .f32 := constant S_ .f32 0x7F800000#32
  let main_v5 : FVec F S5x32 .f32 := broadcastInDim S5x32 ![] bcast_S_S5x32 main_cst_0
  let main_v6 : IVec S5x32 1 := cmpf .olt main_v4 main_v5
  let main_c_1 : IVec S_ 1 := constantI S_ 1 1#1
  let main_v7 : IVec S_ 1 := (fun x v => Host.reduce IntOp.andi x v reducesTo_S5x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg6 main_arg7 main_arg8 main_arg9 main_arg10 main_arg11 main_arg12 main_v13 main_v16
-- ==== Kernel.lean ====
abbrev S50000x5 : Shape := ⟨2, ![50000, 5]⟩
abbrev S2x800000 : Shape := ⟨2, ![2, 800000]⟩
abbrev S50000 : Shape := ⟨1, ![50000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5 : Shape := ⟨1, ![5]⟩
abbrev S1x5 : Shape := ⟨2, ![1, 5]⟩
abbrev S50000x32 : Shape := ⟨2, ![50000, 32]⟩
abbrev S2000x5 : Shape := ⟨2, ![2000, 5]⟩
abbrev S2000x32 : Shape := ⟨2, ![2000, 32]⟩
abbrev S850000x32 : Shape := ⟨2, ![850000, 32]⟩
abbrev S1x32 : Shape := ⟨2, ![1, 32]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩
abbrev S50000x128 : Shape := ⟨2, ![50000, 128]⟩
abbrev S2000x128 : Shape := ⟨2, ![2000, 128]⟩
abbrev S850000x128 : Shape := ⟨2, ![850000, 128]⟩
abbrev S1x128 : Shape := ⟨2, ![1, 128]⟩
abbrev S50000x256 : Shape := ⟨2, ![50000, 256]⟩
abbrev S2000x256 : Shape := ⟨2, ![2000, 256]⟩
abbrev S850000x256 : Shape := ⟨2, ![850000, 256]⟩
abbrev S1x256 : Shape := ⟨2, ![1, 256]⟩
abbrev S50000x1 : Shape := ⟨2, ![50000, 1]⟩
abbrev S64x256 : Shape := ⟨2, ![64, 256]⟩
abbrev S64x1 : Shape := ⟨2, ![64, 1]⟩
abbrev S1x10 : Shape := ⟨2, ![1, 10]⟩
abbrev S64x10 : Shape := ⟨2, ![64, 10]⟩

abbrev nBuf : Space → Nat
  | .hbm => 141
  | .vmem => 28
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S256x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S850000x1, .f32⟩
  | 47 => ⟨S_, .f32⟩
  | 48 => ⟨S5, .f32⟩
  | 49 => ⟨S1x5, .f32⟩
  | 50 => ⟨S50000x32, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x32, .f32⟩
  | 60 => ⟨S850000x32, .f32⟩
  | 61 => ⟨S850000x32, .f32⟩
  | 62 => ⟨S_, .f32⟩
  | 63 => ⟨S50000x32, .f32⟩
  | 64 => ⟨S850000x1, .i32⟩
  | 65 => ⟨S50000x32, .f32⟩
  | 66 => ⟨S1x32, .f32⟩
  | 67 => ⟨S50000x64, .f32⟩
  | 68 => ⟨S_, .i32⟩
  | 69 => ⟨S850000, .i32⟩
  | 70 => ⟨S850000, .i1⟩
  | 71 => ⟨S_, .i32⟩
  | 72 => ⟨S850000, .i32⟩
  | 73 => ⟨S850000, .i32⟩
  | 74 => ⟨S850000, .i32⟩
  | 75 => ⟨S850000x1, .i32⟩
  | 76 => ⟨S850000x64, .f32⟩
  | 77 => ⟨S850000x64, .f32⟩
  | 78 => ⟨S850000x64, .f32⟩
  | 79 => ⟨S_, .f32⟩
  | 80 => ⟨S50000x64, .f32⟩
  | 81 => ⟨S850000x1, .i32⟩
  | 82 => ⟨S50000x64, .f32⟩
  | 83 => ⟨S1x64, .f32⟩
  | 84 => ⟨S50000x128, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x128, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x256, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000x256, .f32⟩
  | 111 => ⟨S850000x256, .f32⟩
  | 112 => ⟨S850000x256, .f32⟩
  | 113 => ⟨S_, .f32⟩
  | 114 => ⟨S50000x256, .f32⟩
  | 115 => ⟨S850000x1, .i32⟩
  | 116 => ⟨S50000x256, .f32⟩
  | 117 => ⟨S1x256, .f32⟩
  | 118 => ⟨S50000x256, .f32⟩
  | 119 => ⟨S50000x256, .f32⟩
  | 120 => ⟨S_, .f32⟩
  | 121 => ⟨S50000x256, .f32⟩
  | 122 => ⟨S50000x256, .f32⟩
  | 123 => ⟨S_, .f32⟩
  | 124 => ⟨S50000, .f32⟩
  | 125 => ⟨S_, .f32⟩
  | 126 => ⟨S64, .f32⟩
  | 127 => ⟨S50000x1, .i32⟩
  | _ => ⟨S50000x5, .f32⟩

abbrev hbmTy0_1 (i : Nat) : BufTy := match i % 128 with
  | 0 => ⟨S64, .f32⟩
  | 1 => ⟨S_, .f32⟩
  | 2 => ⟨S64x256, .f32⟩
  | 3 => ⟨S50000x1, .i32⟩
  | 4 => ⟨S64x256, .f32⟩
  | 5 => ⟨S_, .f32⟩
  | 6 => ⟨S64, .f32⟩
  | 7 => ⟨S64, .f32⟩
  | 8 => ⟨S64x1, .f32⟩
  | 9 => ⟨S64x256, .f32⟩
  | 10 => ⟨S64x256, .f32⟩
  | 11 => ⟨S1x10, .f32⟩
  | 12 => ⟨S64x10, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | .local _ .vmem, ⟨0, _⟩ => ⟨S2000x5, .f32⟩
  | .local _ .vmem, ⟨1, _⟩ => ⟨S2000x5, .f32⟩
  | .local _ .vmem, ⟨2, _⟩ => ⟨S5x32, .f32⟩
  | .local _ .vmem, ⟨3, _⟩ => ⟨S1x5, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S32x64, .f32⟩
  | .local _ .vmem, ⟨9, _⟩ => ⟨S1x32, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x128, .f32⟩
  | .local _ .vmem, ⟨15, _⟩ => ⟨S1x64, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x256, .f32⟩
  | .local _ .vmem, ⟨21, _⟩ => ⟨S1x128, .f32⟩
  | .local _ .vmem, ⟨22, _⟩ => ⟨S2000x256, .f32⟩
  | .local _ .vmem, ⟨23, _⟩ => ⟨S2000x256, .f32⟩
  | .local _ .vmem, ⟨24, _⟩ => ⟨S64x256, .f32⟩
  | .local _ .vmem, ⟨25, _⟩ => ⟨S256x10, .f32⟩
  | .local _ .vmem, ⟨26, _⟩ => ⟨S1x10, .f32⟩
  | .local _ .vmem, ⟨27, _⟩ => ⟨S64x10, .f32⟩
  | _, _ => ⟨S50000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_8 : Ref sig .tc := ⟨.hbm, 68, rfl⟩
abbrev main_v45 : Ref sig .tc := ⟨.hbm, 69, rfl⟩
abbrev main_v46 : Ref sig .tc := ⟨.hbm, 70, rfl⟩
abbrev main_c_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call0_cst : Ref sig .tc := ⟨.hbm, 120, rfl⟩
abbrev main_call0_v0 : Ref sig .tc := ⟨.hbm, 121, rfl⟩
abbrev main_v88 : Ref sig .tc := ⟨.hbm, 122, rfl⟩
abbrev main_cst_17 : Ref sig .tc := ⟨.hbm, 123, rfl⟩
abbrev main_v89 : Ref sig .tc := ⟨.hbm, 124, rfl⟩
abbrev main_cst_18 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_19 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_20 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem1_0 : DmaSem sig := 25
abbrev cc4_sem2_0 : DmaSem sig := 26
abbrev cc4_sem3_0 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S256x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S_S5 : S_.BroadcastsInDim S5 (![] : Fin 0 → Fin S5.rank)
  shapeCasts_S5_S1x5 : S5.ShapeCasts S1x5
  inb_S2000x5_S2000x5_0_0 : ∀ a, (![0, 0] : Fin 2 → Nat) a + S2000x5.size a ≤ S2000x5.size a
  h_S2000x5 : 0 < S2000x5.numel
  bitsLt_bf16_f32 : FTy.bits .bf16 < FTy.bits .f32
  inb_S5x32_S5x32_0_0 : ∀ a, (![0, 0] : Fin 2 → Nat) a + S5x32.size a ≤ S5x32.size a
  h_S5x32 : 0 < S5x32.numel
  inb_S2000x32_S2000x32_0_0 : ∀ a, (![0, 0] : Fin 2 → Nat) a + S2000x32.size a ≤ S2000x32.size a
  h_S2000x32 : 0 < S2000x32.numel
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x64_S32x64_0_0 : ∀ a, (![0, 0] : Fin 2 → Nat) a + S32x64.size a ≤ S32x64.size a
  h_S32x64 : 0 < S32x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x128_S64x128_0_0 : ∀ a, (![0, 0] : Fin 2 → Nat) a + S64x128.size a ≤ S64x128.size a
  h_S64x128 : 0 < S64x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  inb_S2000x256_S2000x256_0_0 : ∀ a, (![0, 0] : Fin 2 → Nat) a + S2000x256.size a ≤ S2000x256.size a
  h_S2000x256 : 0 < S2000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  shapeCasts_S10_S1x10 : S10.ShapeCasts S1x10
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256x10_S256x10_0_0 : ∀ a, (![0, 0] : Fin 2 → Nat) a + S256x10.size a ≤ S256x10.size a
  h_S256x10 : 0 < S256x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x5_S5x32_S2000x32_1_0_0_1_n_n_wf : DotDims.WF S2000x5 S5x32 S2000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S2000x32_S32x64_S2000x64_1_0_0_1_n_n_wf : DotDims.WF S2000x32 S32x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x128_S2000x128_1_0_0_1_n_n_wf : DotDims.WF S2000x64 S64x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x5.size a ≤ S50000x5.size a
  hwx0_0 : ∀ i : grid0.Coords, EltTy.bits .f32 = 32 ∨ (Rect.block (s := S50000x5) S2000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32.size a ≤ S5x32.size a
  hwx0_1 : ∀ i : grid0.Coords, EltTy.bits .f32 = 32 ∨ (Rect.block (s := S5x32) S5x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S50000x32.size a
  hwx0_3 : ∀ i : grid0.Coords, EltTy.bits .f32 = 32 ∨ (Rect.block (s := S50000x32) S2000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S50000x32.size a
  hwx1_0 : ∀ i : grid1.Coords, EltTy.bits .f32 = 32 ∨ (Rect.block (s := S50000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S50000x64.size a
  hwx1_3 : ∀ i : grid1.Coords, EltTy.bits .f32 = 32 ∨ (Rect.block (s := S50000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S64x256.size a ≤ S64x256.size a
  hwx4_0 : ∀ i : grid4.Coords, EltTy.bits .f32 = 32 ∨ (Rect.block (s := S64x256) S64x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x10.size a ≤ S256x10.size a
  hwx4_1 : ∀ i : grid4.Coords, EltTy.bits .f32 = 32 ∨ (Rect.block (s := S256x10) S256x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x10.size a ≤ S64x10.size a
  hwx4_3 : ∀ i : grid4.Coords, EltTy.bits .f32 = 32 ∨ (Rect.block (s := S64x10) S64x10.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x5_S5x32_S2000x32_1_0_0_1_n_n : DotDims S2000x5 S5x32 S2000x32 where
  lhsContracting := [1]
  rhsContracting := [0]
  lhsNonContracting := [0]
  rhsNonContracting := [1]
  lhsBatch := []
  rhsBatch := []
  wf := dot_S2000x5_S5x32_S2000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_arg0) S2000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S5x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S2000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v42) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v70) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v72) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v100) S64x256.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S256x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S64x10.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x5 : Shape := ⟨2, ![50000, 5]⟩
abbrev S2x800000 : Shape := ⟨2, ![2, 800000]⟩
abbrev S50000 : Shape := ⟨1, ![50000]⟩
abbrev S5x32 : Shape := ⟨2, ![5, 32]⟩
abbrev S32 : Shape := ⟨1, ![32]⟩
abbrev S32x64 : Shape := ⟨2, ![32, 64]⟩
abbrev S64 : Shape := ⟨1, ![64]⟩
abbrev S64x128 : Shape := ⟨2, ![64, 128]⟩
abbrev S128 : Shape := ⟨1, ![128]⟩
abbrev S128x256 : Shape := ⟨2, ![128, 256]⟩
abbrev S256 : Shape := ⟨1, ![256]⟩
abbrev S256x10 : Shape := ⟨2, ![256, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S850000x32 : Shape := ⟨2, ![850000, 32]⟩
abbrev S1x32 : Shape := ⟨2, ![1, 32]⟩
abbrev S50000x64 : Shape := ⟨2, ![50000, 64]⟩
abbrev S850000x64 : Shape := ⟨2, ![850000, 64]⟩
abbrev S1x64 : Shape := ⟨2, ![1, 64]⟩
abbrev S50000x128 : Shape := ⟨2, ![50000, 128]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S50000x1 : Shape := ⟨2, ![50000, 1]⟩
abbrev S64x256 : Shape := ⟨2, ![64, 256]⟩
abbrev S64x1 : Shape := ⟨2, ![64, 1]⟩
abbrev S64x10 : Shape := ⟨2, ![64, 10]⟩
abbrev S1x10 : Shape := ⟨2, ![1, 10]⟩

abbrev nBuf : Space → Nat
  | .hbm => 170
  | .vmem => 0
  | .smem => 0
  | _ => 0

abbrev hbmTy0_0 (i : Nat) : BufTy := match i % 128 with
  | 0 => ⟨S50000x5, .f32⟩
  | 1 => ⟨S2x800000, .i32⟩
  | 2 => ⟨S50000, .i32⟩
  | 3 => ⟨S5x32, .f32⟩
  | 4 => ⟨S32, .f32⟩
  | 5 => ⟨S32x64, .f32⟩
  | 6 => ⟨S64, .f32⟩
  | 7 => ⟨S64x128, .f32⟩
  | 8 => ⟨S128, .f32⟩
  | 9 => ⟨S128x256, .f32⟩
  | 10 => ⟨S256, .f32⟩
  | 11 => ⟨S256x10, .f32⟩
  | 12 => ⟨S10, .f32⟩
  | 13 => ⟨S50000, .i32⟩
  | 14 => ⟨S1x800000, .i32⟩
  | 15 => ⟨S800000, .i32⟩
  | 16 => ⟨S850000, .i32⟩
  | 17 => ⟨S1x800000, .i32⟩
  | 18 => ⟨S800000, .i32⟩
  | 19 => ⟨S850000, .i32⟩
  | 20 => ⟨S_, .f32⟩
  | 21 => ⟨S850000, .f32⟩
  | 22 => ⟨S_, .f32⟩
  | 23 => ⟨S50000, .f32⟩
  | 24 => ⟨S850000x1, .i32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S850000x1, .f32⟩
  | 47 => ⟨S50000x32, .f32⟩
  | 48 => ⟨S_, .i32⟩
  | 49 => ⟨S850000, .i32⟩
  | 50 => ⟨S850000, .i1⟩
  | 51 => ⟨S_, .i32⟩
  | 52 => ⟨S850000, .i32⟩
  | 53 => ⟨S850000, .i32⟩
  | 54 => ⟨S850000, .i32⟩
  | 55 => ⟨S850000x1, .i32⟩
  | 56 => ⟨S850000x32, .f32⟩
  | 57 => ⟨S850000x32, .f32⟩
  | 58 => ⟨S850000x32, .f32⟩
  | 59 => ⟨S_, .f32⟩
  | 60 => ⟨S50000x32, .f32⟩
  | 61 => ⟨S850000x1, .i32⟩
  | 62 => ⟨S50000x32, .f32⟩
  | 63 => ⟨S1x32, .f32⟩
  | 64 => ⟨S50000x32, .f32⟩
  | 65 => ⟨S50000x32, .f32⟩
  | 66 => ⟨S_, .f32⟩
  | 67 => ⟨S50000x32, .f32⟩
  | 68 => ⟨S50000x32, .f32⟩
  | 69 => ⟨S50000x64, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x64, .f32⟩
  | 79 => ⟨S850000x64, .f32⟩
  | 80 => ⟨S850000x64, .f32⟩
  | 81 => ⟨S_, .f32⟩
  | 82 => ⟨S50000x64, .f32⟩
  | 83 => ⟨S850000x1, .i32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x128, .f32⟩
  | 102 => ⟨S850000x128, .f32⟩
  | 103 => ⟨S_, .f32⟩
  | 104 => ⟨S50000x128, .f32⟩
  | 105 => ⟨S850000x1, .i32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S50000x256, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x256, .f32⟩
  | 123 => ⟨S850000x256, .f32⟩
  | 124 => ⟨S850000x256, .f32⟩
  | 125 => ⟨S_, .f32⟩
  | 126 => ⟨S50000x256, .f32⟩
  | 127 => ⟨S850000x1, .i32⟩
  | _ => ⟨S50000x5, .f32⟩

abbrev hbmTy0_1 (i : Nat) : BufTy := match i % 128 with
  | 0 => ⟨S50000x256, .f32⟩
  | 1 => ⟨S1x256, .f32⟩
  | 2 => ⟨S50000x256, .f32⟩
  | 3 => ⟨S50000x256, .f32⟩
  | 4 => ⟨S_, .f32⟩
  | 5 => ⟨S50000x256, .f32⟩
  | 6 => ⟨S50000x256, .f32⟩
  | 7 => ⟨S_, .f32⟩
  | 8 => ⟨S50000, .f32⟩
  | 9 => ⟨S_, .f32⟩
  | 10 => ⟨S64, .f32⟩
  | 11 => ⟨S50000x1, .i32⟩
  | 12 => ⟨S64, .f32⟩
  | 13 => ⟨S_, .f32⟩
  | 14 => ⟨S64x256, .f32⟩
  | 15 => ⟨S50000x1, .i32⟩
  | 16 => ⟨S64x256, .f32⟩
  | 17 => ⟨S_, .f32⟩
  | 18 => ⟨S64, .f32⟩
  | 19 => ⟨S64, .f32⟩
  | 20 => ⟨S64x1, .f32⟩
  | 21 => ⟨S64x256, .f32⟩
  | 22 => ⟨S64x256, .f32⟩
  | 23 => ⟨S64x10, .f32⟩
  | 24 => ⟨S1x10, .f32⟩
  | 25 => ⟨S64x10, .f32⟩
  | 26 => ⟨S64x10, .f32⟩
  | 27 => ⟨S_, .f32⟩
  | 28 => ⟨S64, .f32⟩
  | 29 => ⟨S_, .f32⟩
  | 30 => ⟨S64, .f32⟩
  | 31 => ⟨S64, .f32⟩
  | 32 => ⟨S64x1, .f32⟩
  | 33 => ⟨S64x10, .f32⟩
  | 34 => ⟨S64x10, .f32⟩
  | 35 => ⟨S64x10, .f32⟩
  | 36 => ⟨S_, .f32⟩
  | 37 => ⟨S64, .f32⟩
  | 38 => ⟨S64x1, .f32⟩
  | 39 => ⟨S64x1, .f32⟩
  | 40 => ⟨S64x10, .f32⟩
  | 41 => ⟨S64x10, .f32⟩
  | _ => ⟨S50000x5, .f32⟩

abbrev hbmTy (i : Nat) : BufTy := match i / 128 with
  | 0 => hbmTy0_0 i
  | 1 => hbmTy0_1 i
  | _ => ⟨S50000x5, .f32⟩

abbrev bufTy : (tb : Table) → Fin (tcTables nBuf tb) → BufTy
  | .hbm, ⟨i, _⟩ => hbmTy i
  | _, _ => ⟨S50000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_c_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_c_7 : Ref sig .tc := ⟨.hbm, 70, rfl⟩
abbrev main_v46 : Ref sig .tc := ⟨.hbm, 71, rfl⟩
abbrev main_v47 : Ref sig .tc := ⟨.hbm, 72, rfl⟩
abbrev main_c_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_call1_cst : Ref sig .tc := ⟨.hbm, 88, rfl⟩
abbrev main_call1_v0 : Ref sig .tc := ⟨.hbm, 89, rfl⟩
abbrev main_v61 : Ref sig .tc := ⟨.hbm, 90, rfl⟩
abbrev main_v62 : Ref sig .tc := ⟨.hbm, 91, rfl⟩
abbrev main_c_10 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_call2_cst : Ref sig .tc := ⟨.hbm, 110, rfl⟩
abbrev main_call2_v0 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_c_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_15 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_call3_cst : Ref sig .tc := ⟨.hbm, 132, rfl⟩
abbrev main_call3_v0 : Ref sig .tc := ⟨.hbm, 133, rfl⟩
abbrev main_v95 : Ref sig .tc := ⟨.hbm, 134, rfl⟩
abbrev main_cst_16 : Ref sig .tc := ⟨.hbm, 135, rfl⟩
abbrev main_v96 : Ref sig .tc := ⟨.hbm, 136, rfl⟩
abbrev main_cst_17 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_18 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_19 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_call4_cst : Ref sig .tc := ⟨.hbm, 155, rfl⟩
abbrev main_call4_v0 : Ref sig .tc := ⟨.hbm, 156, rfl⟩
abbrev main_call4_cst_0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_call4_v5 : Ref sig .tc := ⟨.hbm, 162, rfl⟩
abbrev main_call4_v6 : Ref sig .tc := ⟨.hbm, 163, rfl⟩
abbrev main_call4_cst_1 : Ref sig .tc := ⟨.hbm, 164, rfl⟩
abbrev main_call4_v7 : Ref sig .tc := ⟨.hbm, 165, rfl⟩
abbrev main_call4_v8 : Ref sig .tc := ⟨.hbm, 166, rfl⟩
abbrev main_call4_v9 : Ref sig .tc := ⟨.hbm, 167, rfl⟩
abbrev main_call4_v10 : Ref sig .tc := ⟨.hbm, 168, rfl⟩
abbrev main_v112 : Ref sig .tc := ⟨.hbm, 169, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S64 : S_.BroadcastsInDim S64 (![] : Fin 0 → Fin S64.rank)
  bcast_S50000_S50000x1_0 : S50000.BroadcastsInDim S50000x1 (![0] : Fin 1 → Fin S50000x1.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x5_S5x32_S50000x32_1_0_0_1_n_n_wf : DotDims.WF S50000x5 S5x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x64_S50000x64_1_0_0_1_n_n_wf : DotDims.WF S50000x32 S32x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x10_S64x10_1_0_0_1_n_n_wf : DotDims.WF S64x256 S256x10 S64x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x5_S5x32_S50000x32_1_0_0_1_n_n : DotDims S50000x5 S5x32 S50000x32 where
  lhsContracting := [1]
  rhsContracting := [0]
  lhsNonContracting := [0]
  rhsNonContracting := [1]
  lhsBatch := []
  rhsBatch := []
  wf := dot_S50000x5_S5x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.KRun.lean ====
/-
  The idealized kernel's run with its result named. @main is twelve segments: host stretches and the five
  row-tiled regions. From any launch memory every weakly fair execution ends, on each core, with every unscoped
  buffer holding the last segment boundary's contents: the launch memory pushed through each host stretch (each
  operation rewrites its own result buffer) and through each region (its output array at what the grid's
  write-backs leave, every other buffer as it was). In particular the result buffer ends at that fold's value, and
  each argument buffer, which no segment writes, at its launch contents.
-/
import proofs.«138034_j79680233276088_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the twelve segments from the launch: the result buffer ends at the last boundary's contents, and so
    does every other unscoped buffer of the core. -/
theorem run_fold : θ_run defs (onTc (τ := τ) (main (F := F))) ⟨m, fun _ => 0, ρ⟩ (fun r => ∀ c : Dev nD,
      r.2.mem ((c.tc : Thread nD τ).loc main_v102) = W12 m ρ c (Proc.devRef .tc main_v102)
      ∧ ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => ⟨h c _ (mem_uc main_v102 (by decide)), fun b hb => h c b hb⟩)

/-- The same run with the arguments read back: no segment writes an argument buffer, so the fold at it is the
    launch memory. -/
theorem run_named : θ_run defs (onTc (τ := τ) (main (F := F))) ⟨m, fun _ => 0, ρ⟩ (fun r => ∀ c : Dev nD,
      r.2.mem ((c.tc : Thread nD τ).loc main_v102) = W12 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c).1,
     ((h c).2 _ (mem_uc main_arg0 (by decide))).trans (W12_main_arg0 m ρ c),
     ((h c).2 _ (mem_uc main_arg1 (by decide))).trans (W12_main_arg1 m ρ c),
     ((h c).2 _ (mem_uc main_arg2 (by decide))).trans (W12_main_arg2 m ρ c),
     ((h c).2 _ (mem_uc main_arg3 (by decide))).trans (W12_main_arg3 m ρ c),
     ((h c).2 _ (mem_uc main_arg4 (by decide))).trans (W12_main_arg4 m ρ c),
     ((h c).2 _ (mem_uc main_arg5 (by decide))).trans (W12_main_arg5 m ρ c),
     ((h c).2 _ (mem_uc main_arg6 (by decide))).trans (W12_main_arg6 m ρ c),
     ((h c).2 _ (mem_uc main_arg7 (by decide))).trans (W12_main_arg7 m ρ c),
     ((h c).2 _ (mem_uc main_arg8 (by decide))).trans (W12_main_arg8 m ρ c),
     ((h c).2 _ (mem_uc main_arg9 (by decide))).trans (W12_main_arg9 m ρ c),
     ((h c).2 _ (mem_uc main_arg10 (by decide))).trans (W12_main_arg10 m ρ c),
     ((h c).2 _ (mem_uc main_arg11 (by decide))).trans (W12_main_arg11 m ρ c),
     ((h c).2 _ (mem_uc main_arg12 (by decide))).trans (W12_main_arg12 m ρ c)⟩)
    (run_fold m ρ)

end Cert.KernelIdeal.Run

end
-- ==== Proof.Spec.lean ====
/-
  The network's dense layers as functions of whole arrays, index by index, on the extended reals.
  A graph-convolution layer is (positive part of (aggregated features + bias row)) times a weight matrix; the first
  layer has no bias and no positive part in front of its product. Both programs compute these: one row block at a
  time on one side, one whole matrix product on the other; a row of the product depends only on the same row of
  the left factor, so the row blocks of the product are the products of the row blocks.
-/
import Idealize.ShloMosaic.PureOps.Ideal
import Idealize.ShloMosaic.Lib.ValueIdx

noncomputable section

namespace Cert.Spec

open Idealize.ShloMosaic Idealize.ShloMosaic.ValueIdx

/-- The matrix product of an `N × K` array and a `K × P` array: entry `(r, q)` is `∑ k, Y (r, k) · W (k, q)`. -/
def mm (N K P : Nat) (Y : (⟨2, ![N, K]⟩ : Shape).Idx → EReal) (W : (⟨2, ![K, P]⟩ : Shape).Idx → EReal) :
    (⟨2, ![N, P]⟩ : Shape).Idx → EReal :=
  fun i => ∑ k : Fin K, Y (ix2 (i 0) k) * W (ix2 k (i 1))

/-- A bias row (a `1 × K` array) added to every row of an `N × K` array, then the positive part:
    entry `(r, k)` is `max (X (r, k) + b (0, k)) 0`. -/
def reluBias (N K : Nat) (X : (⟨2, ![N, K]⟩ : Shape).Idx → EReal) (b : (⟨2, ![1, K]⟩ : Shape).Idx → EReal) :
    (⟨2, ![N, K]⟩ : Shape).Idx → EReal :=
  fun i => max (X i + b (ix2 (0 : Fin 1) (i 1))) 0

theorem mm_apply (N K P : Nat) (Y : (⟨2, ![N, K]⟩ : Shape).Idx → EReal) (W : (⟨2, ![K, P]⟩ : Shape).Idx → EReal)
    (r : Fin N) (q : Fin P) : mm N K P Y W (ix2 r q) = ∑ k : Fin K, Y (ix2 r k) * W (ix2 k q) := rfl

theorem reluBias_apply (N K : Nat) (X : (⟨2, ![N, K]⟩ : Shape).Idx → EReal) (b : (⟨2, ![1, K]⟩ : Shape).Idx → EReal)
    (r : Fin N) (k : Fin K) : reluBias N K X b (ix2 r k) = max (X (ix2 r k) + b (ix2 (0 : Fin 1) k)) 0 := rfl

end Cert.Spec

end
-- ==== Proof.SpecC.lean ====
/-
  The classifier head as a function of whole arrays, index by index, on the extended reals.
  For pooled features `P` (64 × 256), a weight matrix `W` (256 × 10) and a bias row `B` (1 × 10):
    z (g, j)   = (∑ k, P (g, k) · W (k, j)) + B (0, j)                 the logits,
    m g        = max (−∞) (the maximum over j of z (g, j), folded from −∞) the row maximum,
    s (g, j)   = z (g, j) − m g                                          the shifted logits,
    out (g, j) = s (g, j) − log (∑ j', exp (s (g, j')))                  the log-softmax of row g.
  −∞ is kept as the value of the binary32 pattern 0xFF800000 and is never evaluated: both programs start their
  row maximum from that same pattern, so no fact about it is needed.
-/
import Idealize.ShloMosaic.PureOps.Ideal
import Idealize.ShloMosaic.Lib.ValueIdx

noncomputable section

namespace Cert.SpecC

open Idealize.ShloMosaic Idealize.ShloMosaic.ValueIdx

/-- The logits: entry `(g, j)` is `(∑ k, P (g, k) · W (k, j)) + B (0, j)`. -/
def logits (P : (⟨2, ![64, 256]⟩ : Shape).Idx → EReal) (W : (⟨2, ![256, 10]⟩ : Shape).Idx → EReal)
    (B : (⟨2, ![1, 10]⟩ : Shape).Idx → EReal) : (⟨2, ![64, 10]⟩ : Shape).Idx → EReal :=
  fun i => (∑ k : Fin 256, P (ix2 (i 0) k) * W (ix2 k (i 1))) + B (ix2 (0 : Fin 1) (i 1))

/-- The maximum of row `g` of a 64 × 10 array: the fold of `max` over the ten columns starting from −∞ (the value of
    the binary32 pattern 0xFF800000), and once more the maximum of −∞ and that. -/
def rowMax (Z : (⟨2, ![64, 10]⟩ : Shape).Idx → EReal) (g : Fin 64) : EReal :=
  max (Ideal.ofBits .f32 0xFF800000#32)
    ((Finset.univ : Finset (Fin 10)).fold max (Ideal.ofBits .f32 0xFF800000#32) fun j => Z (ix2 g j))

/-- Every row shifted by its maximum: entry `(g, j)` is `Z (g, j) − rowMax Z g`. -/
def shifted (Z : (⟨2, ![64, 10]⟩ : Shape).Idx → EReal) : (⟨2, ![64, 10]⟩ : Shape).Idx → EReal :=
  fun i => Z i - rowMax Z (i 0)

/-- The log-softmax of every row: entry `(g, j)` is `s (g, j) − log (∑ j', exp (s (g, j')))` with `s = shifted Z`. -/
def logSoftmax (Z : (⟨2, ![64, 10]⟩ : Shape).Idx → EReal) : (⟨2, ![64, 10]⟩ : Shape).Idx → EReal :=
  fun i => shifted Z i - Ideal.log (∑ j : Fin 10, Ideal.exp (shifted Z (ix2 (i 0) j)))

/-- The classifier head: the log-softmax, row by row, of `P · W` plus the bias row `B` added to every row. -/
def classify (P : (⟨2, ![64, 256]⟩ : Shape).Idx → EReal) (W : (⟨2, ![256, 10]⟩ : Shape).Idx → EReal)
    (B : (⟨2, ![1, 10]⟩ : Shape).Idx → EReal) : (⟨2, ![64, 10]⟩ : Shape).Idx → EReal :=
  logSoftmax (logits P W B)

theorem logits_apply (P : (⟨2, ![64, 256]⟩ : Shape).Idx → EReal) (W : (⟨2, ![256, 10]⟩ : Shape).Idx → EReal)
    (B : (⟨2, ![1, 10]⟩ : Shape).Idx → EReal) (g : Fin 64) (j : Fin 10) :
    logits P W B (ix2 g j) = (∑ k : Fin 256, P (ix2 g k) * W (ix2 k j)) + B (ix2 (0 : Fin 1) j) := rfl

theorem shifted_apply (Z : (⟨2, ![64, 10]⟩ : Shape).Idx → EReal) (g : Fin 64) (j : Fin 10) :
    shifted Z (ix2 g j) = Z (ix2 g j) - rowMax Z g := rfl

theorem logSoftmax_apply (Z : (⟨2, ![64, 10]⟩ : Shape).Idx → EReal) (g : Fin 64) (j : Fin 10) :
    logSoftmax Z (ix2 g j) = shifted Z (ix2 g j) - Ideal.log (∑ j' : Fin 10, Ideal.exp (shifted Z (ix2 g j'))) := rfl

theorem classify_apply (P : (⟨2, ![64, 256]⟩ : Shape).Idx → EReal) (W : (⟨2, ![256, 10]⟩ : Shape).Idx → EReal)
    (B : (⟨2, ![1, 10]⟩ : Shape).Idx → EReal) (g : Fin 64) (j : Fin 10) :
    classify P W B (ix2 g j)
      = shifted (logits P W B) (ix2 g j) - Ideal.log (∑ j' : Fin 10, Ideal.exp (shifted (logits P W B) (ix2 g j'))) := rfl

end Cert.SpecC

end
-- ==== Proof.RefDense.lean ====
/-
  The reference's dense layers read entry by entry on the extended reals. Each layer's host matrix product is the
  sum over the inner index of its factors' entries; the left factor of layers 1 to 3 is the positive part of the
  aggregated features plus the bias row, entry by entry. So each layer is the specification's product.
-/
import proofs.«138034_j79680233276088_1_alg».proof.Proof.Gen.ReferenceIdeal.Read
import proofs.«138034_j79680233276088_1_alg».proof.Proof.Spec

noncomputable section

namespace Cert.ReferenceIdeal.Dense

open Cert.ReferenceIdeal Cert.ReferenceIdeal.Read Idealize.ShloMosaic Idealize.ShloMosaic.ValueIdx

/-- Layer 0 of the reference: the first matrix product, entry by entry. -/
theorem ref0 (x0 : (⟨S50000x5, .f32⟩ : BufTy).Contents (Elt Ideal)) (x3 : (⟨S5x32, .f32⟩ : BufTy).Contents (Elt Ideal)) :
    val_main_v28 (F := Ideal) x0 x3 = Cert.Spec.mm 50000 5 32 x0 x3 := by
  funext i
  obtain ⟨r, q, rfl⟩ : ∃ (r : Fin 50000) (q : Fin 32), i = ix2 r q := ⟨i 0, i 1, eq_ix2 i⟩
  rw [val_main_v28_apply, Cert.Spec.mm_apply]
  refine Finset.sum_congr rfl fun k _ => ?_
  have el : lidx_main_v28 (ix2 r q) k = ix2 r k := funext fun a => Fin.ext (by match a with | ⟨0, _⟩ => rfl | ⟨1, _⟩ => rfl)
  have er : ridx_main_v28 (ix2 r q) k = ix2 k q := funext fun a => Fin.ext (by match a with | ⟨0, _⟩ => rfl | ⟨1, _⟩ => rfl)
  rw [el, er]

/-- Layer 1 of the reference: the whole matrix product of the positive part of (aggregated features + bias row) with
    the weight is, entry by entry, the sum over the inner index of those factors. -/
theorem ref1 (x0 : (⟨S50000x5, .f32⟩ : BufTy).Contents (Elt Ideal)) (x1 : (⟨S2x800000, .i32⟩ : BufTy).Contents (Elt Ideal)) (x3 : (⟨S5x32, .f32⟩ : BufTy).Contents (Elt Ideal)) (x4 : (⟨S32, .f32⟩ : BufTy).Contents (Elt Ideal)) (x5 : (⟨S32x64, .f32⟩ : BufTy).Contents (Elt Ideal)) :
    val_main_v45 (F := Ideal) x0 x1 x3 x4 x5
      = Cert.Spec.mm 50000 32 64 (Cert.Spec.reluBias 50000 32 (val_main_v40 (F := Ideal) x0 x1 x3) (val_main_v41 (F := Ideal) x4)) x5 := by
  funext i
  obtain ⟨r, q, rfl⟩ : ∃ (r : Fin 50000) (q : Fin 64), i = ix2 r q := ⟨i 0, i 1, eq_ix2 i⟩
  rw [val_main_v45_apply, Cert.Spec.mm_apply]
  refine Finset.sum_congr rfl fun k _ => ?_
  have el : lidx_main_v45 (ix2 r q) k = ix2 r k := funext fun a => Fin.ext (by match a with | ⟨0, _⟩ => rfl | ⟨1, _⟩ => rfl)
  have er : ridx_main_v45 (ix2 r q) k = ix2 k q := funext fun a => Fin.ext (by match a with | ⟨0, _⟩ => rfl | ⟨1, _⟩ => rfl)
  have eb : idx_main_v42 (ix2 r k) = ix2 (0 : Fin 1) k := funext fun a => Fin.ext (by match a with | ⟨0, _⟩ => rfl | ⟨1, _⟩ => rfl)
  rw [el, er, Cert.Spec.reluBias_apply, val_main_v44_apply, val_main_v43_apply, val_main_v42_apply, val_main_call0_v0_apply,
    val_main_call0_cst_apply, eb]
  simp only [Ideal.maximumf_def, Ideal.addf_def, Ideal.ofBits_def, Ideal.ofBits_zero_f32]

/-- Layer 2 of the reference: the whole matrix product of the positive part of (aggregated features + bias row) with
    the weight is, entry by entry, the sum over the inner index of those factors. -/
theorem ref2 (x0 : (⟨S50000x5, .f32⟩ : BufTy).Contents (Elt Ideal)) (x1 : (⟨S2x800000, .i32⟩ : BufTy).Contents (Elt Ideal)) (x3 : (⟨S5x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) :
    val_main_v62 (F := Ideal) x0 x1 x3 x4 x5 x6 x7
      = Cert.Spec.mm 50000 64 128 (Cert.Spec.reluBias 50000 64 (val_main_v57 (F := Ideal) x0 x1 x3 x4 x5) (val_main_v58 (F := Ideal) x6)) x7 := by
  funext i
  obtain ⟨r, q, rfl⟩ : ∃ (r : Fin 50000) (q : Fin 128), i = ix2 r q := ⟨i 0, i 1, eq_ix2 i⟩
  rw [val_main_v62_apply, Cert.Spec.mm_apply]
  refine Finset.sum_congr rfl fun k _ => ?_
  have el : lidx_main_v62 (ix2 r q) k = ix2 r k := funext fun a => Fin.ext (by match a with | ⟨0, _⟩ => rfl | ⟨1, _⟩ => rfl)
  have er : ridx_main_v62 (ix2 r q) k = ix2 k q := funext fun a => Fin.ext (by match a with | ⟨0, _⟩ => rfl | ⟨1, _⟩ => rfl)
  have eb : idx_main_v59 (ix2 r k) = ix2 (0 : Fin 1) k := funext fun a => Fin.ext (by match a with | ⟨0, _⟩ => rfl | ⟨1, _⟩ => rfl)
  rw [el, er, Cert.Spec.reluBias_apply, val_main_v61_apply, val_main_v60_apply, val_main_v59_apply, val_main_call1_v0_apply,
    val_main_call1_cst_apply, eb]
  simp only [Ideal.maximumf_def, Ideal.addf_def, Ideal.ofBits_def, Ideal.ofBits_zero_f32]

/-- Layer 3 of the reference: the whole matrix product of the positive part of (aggregated features + bias row) with
    the weight is, entry by entry, the sum over the inner index of those factors. -/
theorem ref3 (x0 : (⟨S50000x5, .f32⟩ : BufTy).Contents (Elt Ideal)) (x1 : (⟨S2x800000, .i32⟩ : BufTy).Contents (Elt Ideal)) (x3 : (⟨S5x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x256, .f32⟩ : BufTy).Contents (Elt Ideal)) :
    val_main_v79 (F := Ideal) x0 x1 x3 x4 x5 x6 x7 x8 x9
      = Cert.Spec.mm 50000 128 256 (Cert.Spec.reluBias 50000 128 (val_main_v74 (F := Ideal) x0 x1 x3 x4 x5 x6 x7) (val_main_v75 (F := Ideal) x8)) x9 := by
  funext i
  obtain ⟨r, q, rfl⟩ : ∃ (r : Fin 50000) (q : Fin 256), i = ix2 r q := ⟨i 0, i 1, eq_ix2 i⟩
  rw [val_main_v79_apply, Cert.Spec.mm_apply]
  refine Finset.sum_congr rfl fun k _ => ?_
  have el : lidx_main_v79 (ix2 r q) k = ix2 r k := funext fun a => Fin.ext (by match a with | ⟨0, _⟩ => rfl | ⟨1, _⟩ => rfl)
  have er : ridx_main_v79 (ix2 r q) k = ix2 k q := funext fun a => Fin.ext (by match a with | ⟨0, _⟩ => rfl | ⟨1, _⟩ => rfl)
  have eb : idx_main_v76 (ix2 r k) = ix2 (0 : Fin 1) k := funext fun a => Fin.ext (by match a with | ⟨0, _⟩ => rfl | ⟨1, _⟩ => rfl)
  rw [el, er, Cert.Spec.reluBias_apply, val_main_v78_apply, val_main_v77_apply, val_main_v76_apply, val_main_call2_v0_apply,
    val_main_call2_cst_apply, eb]
  simp only [Ideal.maximumf_def, Ideal.addf_def, Ideal.ofBits_def, Ideal.ofBits_zero_f32]

end Cert.ReferenceIdeal.Dense

end
-- ==== Proof.ChainA.lean ====
/-
  The idealized kernel's result as the reference's function of the arguments. The kernel's @main and the reference's
  are the same host operations in the same order, except that where the reference has one whole matrix product
  (layers 0 to 3, on the positive part of the aggregated features plus the bias row) and its host log-softmax
  tail, the kernel has a row-tiled region. Walking the kernel's segment boundaries from the launch: after each host
  stretch every buffer the later segments read holds the reference's stage value of the same operation (the two
  lists of operations agree term by term once the earlier stages agree); after each region its output array holds
  the layer's product, which is the reference's matrix-product stage. The arguments and the three long-lived index
  and normalisation arrays are carried across every boundary because no later segment writes them.
-/
import proofs.«138034_j79680233276088_1_alg».proof.Proof.Gen.KernelIdeal.Frame
import proofs.«138034_j79680233276088_1_alg».proof.Proof.Gen.ReferenceIdeal.Read
import proofs.«138034_j79680233276088_1_alg».proof.Proof.Spec
import proofs.«138034_j79680233276088_1_alg».proof.Proof.SpecC
import proofs.«138034_j79680233276088_1_alg».proof.Proof.RefDense
import Idealize.ShloMosaic.Lib.StableHlo.Run
import Idealize.ShloMosaic.Lib.Pipeline.Value

set_option maxRecDepth 16384

noncomputable section

namespace Cert.Chain

open Cert.ReferenceIdeal.Read Cert.KernelIdeal Cert.KernelIdeal.Gen Idealize.ShloMosaic Idealize.ShloMosaic.TcCoe Idealize.SL.Sem Idealize.ShloMosaic.StableHlo

/-- What each region leaves in its output array, as a function of the arrays it finds at entry: the layer's product
    for the four dense regions, the classifier's log-softmax for the last. -/
structure RegionValues : Prop where
  d0 : ∀ (V : (c : Dev nD) → (b : Ref sig .tc) → Buf (Elt Ideal) ((c : Thread nD τ).loc b)) (c : Dev nD),
    (dat0 (F := Ideal) V c).arrAt 3 cfg0.N = Cert.Spec.mm 50000 5 32 (V c main_arg0) (V c main_arg3)
  d1 : ∀ (V : (c : Dev nD) → (b : Ref sig .tc) → Buf (Elt Ideal) ((c : Thread nD τ).loc b)) (c : Dev nD),
    (dat1 (F := Ideal) V c).arrAt 3 cfg1.N = Cert.Spec.mm 50000 32 64 (Cert.Spec.reluBias 50000 32 (V c main_v42) (V c main_v43)) (V c main_arg5)
  d2 : ∀ (V : (c : Dev nD) → (b : Ref sig .tc) → Buf (Elt Ideal) ((c : Thread nD τ).loc b)) (c : Dev nD),
    (dat2 (F := Ideal) V c).arrAt 3 cfg2.N = Cert.Spec.mm 50000 64 128 (Cert.Spec.reluBias 50000 64 (V c main_v56) (V c main_v57)) (V c main_arg7)
  d3 : ∀ (V : (c : Dev nD) → (b : Ref sig .tc) → Buf (Elt Ideal) ((c : Thread nD τ).loc b)) (c : Dev nD),
    (dat3 (F := Ideal) V c).arrAt 3 cfg3.N = Cert.Spec.mm 50000 128 256 (Cert.Spec.reluBias 50000 128 (V c main_v70) (V c main_v71)) (V c main_arg9)
  cl : ∀ (V : (c : Dev nD) → (b : Ref sig .tc) → Buf (Elt Ideal) ((c : Thread nD τ).loc b)) (c : Dev nD),
    (dat4 (F := Ideal) V c).arrAt 3 cfg4.N = Cert.SpecC.classify (V c main_v100) (V c main_arg11) (V c main_v101)

/-- A length-32 bias read as a `1 × 32` row by a reshape is the same row the broadcast along a new leading axis gives. -/
theorem row32 (b : (⟨S32, .f32⟩ : BufTy).Contents (Elt Ideal)) :
    (fun i => shapeCast S1x32 b shapeCasts_S32_S1x32 i) = val_main_v41 (F := Ideal) b := by
  funext j
  rw [val_main_v41_apply]
  exact (shapeCast_addUnit_apply ![32] b shapeCasts_S32_S1x32 j).trans
    (congrArg b (funext fun a => Fin.ext (by match a with | ⟨0, _⟩ => rfl)))
/-- A length-64 bias read as a `1 × 64` row by a reshape is the same row the broadcast along a new leading axis gives. -/
theorem row64 (b : (⟨S64, .f32⟩ : BufTy).Contents (Elt Ideal)) :
    (fun i => shapeCast S1x64 b shapeCasts_S64_S1x64 i) = val_main_v58 (F := Ideal) b := by
  funext j
  rw [val_main_v58_apply]
  exact (shapeCast_addUnit_apply ![64] b shapeCasts_S64_S1x64 j).trans
    (congrArg b (funext fun a => Fin.ext (by match a with | ⟨0, _⟩ => rfl)))
/-- A length-128 bias read as a `1 × 128` row by a reshape is the same row the broadcast along a new leading axis gives. -/
theorem row128 (b : (⟨S128, .f32⟩ : BufTy).Contents (Elt Ideal)) :
    (fun i => shapeCast S1x128 b shapeCasts_S128_S1x128 i) = val_main_v75 (F := Ideal) b := by
  funext j
  rw [val_main_v75_apply]
  exact (shapeCast_addUnit_apply ![128] b shapeCasts_S128_S1x128 j).trans
    (congrArg b (funext fun a => Fin.ext (by match a with | ⟨0, _⟩ => rfl)))
/-- A length-10 bias read as a `1 × 10` row by a reshape is the same row the broadcast along a new leading axis gives. -/
theorem row10 (b : (⟨S10, .f32⟩ : BufTy).Contents (Elt Ideal)) :
    (fun i => shapeCast S1x10 b shapeCasts_S10_S1x10 i) = val_main_v109 (F := Ideal) b := by
  funext j
  rw [val_main_v109_apply]
  exact (shapeCast_addUnit_apply ![10] b shapeCasts_S10_S1x10 j).trans
    (congrArg b (funext fun a => Fin.ext (by match a with | ⟨0, _⟩ => rfl)))

variable (m : (ℓ : Loc nD τ sig) → Buf (Elt Ideal) ℓ) (ρ : Dev nD → PrngReg)

/-! ## After the first host stretch -/

theorem b1_arg0 (c : Dev nD) : W1 m ρ c (Proc.devRef .tc main_arg0) = m ((c.tc : Thread nD τ).loc main_arg0) := by
  show StableHlo.after hostOps0 (W0 m ρ c) (Proc.devRef .tc main_arg0) = _
  after_results_simp <;> rfl
theorem b1_arg3 (c : Dev nD) : W1 m ρ c (Proc.devRef .tc main_arg3) = m ((c.tc : Thread nD τ).loc main_arg3) := by
  show StableHlo.after hostOps0 (W0 m ρ c) (Proc.devRef .tc main_arg3) = _
  after_results_simp <;> rfl
theorem b1_arg4 (c : Dev nD) : W1 m ρ c (Proc.devRef .tc main_arg4) = m ((c.tc : Thread nD τ).loc main_arg4) := by
  show StableHlo.after hostOps0 (W0 m ρ c) (Proc.devRef .tc main_arg4) = _
  after_results_simp <;> rfl
theorem b1_arg5 (c : Dev nD) : W1 m ρ c (Proc.devRef .tc main_arg5) = m ((c.tc : Thread nD τ).loc main_arg5) := by
  show StableHlo.after hostOps0 (W0 m ρ c) (Proc.devRef .tc main_arg5) = _
  after_results_simp <;> rfl
theorem b1_arg6 (c : Dev nD) : W1 m ρ c (Proc.devRef .tc main_arg6) = m ((c.tc : Thread nD τ).loc main_arg6) := by
  show StableHlo.after hostOps0 (W0 m ρ c) (Proc.devRef .tc main_arg6) = _
  after_results_simp <;> rfl
theorem b1_arg7 (c : Dev nD) : W1 m ρ c (Proc.devRef .tc main_arg7) = m ((c.tc : Thread nD τ).loc main_arg7) := by
  show StableHlo.after hostOps0 (W0 m ρ c) (Proc.devRef .tc main_arg7) = _
  after_results_simp <;> rfl
theorem b1_arg8 (c : Dev nD) : W1 m ρ c (Proc.devRef .tc main_arg8) = m ((c.tc : Thread nD τ).loc main_arg8) := by
  show StableHlo.after hostOps0 (W0 m ρ c) (Proc.devRef .tc main_arg8) = _
  after_results_simp <;> rfl
theorem b1_arg9 (c : Dev nD) : W1 m ρ c (Proc.devRef .tc main_arg9) = m ((c.tc : Thread nD τ).loc main_arg9) := by
  show StableHlo.after hostOps0 (W0 m ρ c) (Proc.devRef .tc main_arg9) = _
  after_results_simp <;> rfl
theorem b1_arg10 (c : Dev nD) : W1 m ρ c (Proc.devRef .tc main_arg10) = m ((c.tc : Thread nD τ).loc main_arg10) := by
  show StableHlo.after hostOps0 (W0 m ρ c) (Proc.devRef .tc main_arg10) = _
  after_results_simp <;> rfl
theorem b1_arg2 (c : Dev nD) : W1 m ρ c (Proc.devRef .tc main_arg2) = m ((c.tc : Thread nD τ).loc main_arg2) := by
  show StableHlo.after hostOps0 (W0 m ρ c) (Proc.devRef .tc main_arg2) = _
  after_results_simp <;> rfl
theorem b1_arg12 (c : Dev nD) : W1 m ρ c (Proc.devRef .tc main_arg12) = m ((c.tc : Thread nD τ).loc main_arg12) := by
  show StableHlo.after hostOps0 (W0 m ρ c) (Proc.devRef .tc main_arg12) = _
  after_results_simp <;> rfl
theorem b1_arg11 (c : Dev nD) : W1 m ρ c (Proc.devRef .tc main_arg11) = m ((c.tc : Thread nD τ).loc main_arg11) := by
  show StableHlo.after hostOps0 (W0 m ρ c) (Proc.devRef .tc main_arg11) = _
  after_results_simp <;> rfl
theorem b1_v3 (c : Dev nD) : W1 m ρ c (Proc.devRef .tc main_v3) = (val_main_v3 (F := Ideal) (m ((c.tc : Thread nD τ).loc main_arg1))) := by
  show StableHlo.after hostOps0 (W0 m ρ c) (Proc.devRef .tc main_v3) = _
  after_results_simp
  rfl
theorem b1_v6 (c : Dev nD) : W1 m ρ c (Proc.devRef .tc main_v6) = (val_main_v6 (F := Ideal) (m ((c.tc : Thread nD τ).loc main_arg1))) := by
  show StableHlo.after hostOps0 (W0 m ρ c) (Proc.devRef .tc main_v6) = _
  after_results_simp
  rfl
theorem b1_v27 (c : Dev nD) : W1 m ρ c (Proc.devRef .tc main_v27) = (val_main_v27 (F := Ideal) (m ((c.tc : Thread nD τ).loc main_arg1))) := by
  show StableHlo.after hostOps0 (W0 m ρ c) (Proc.devRef .tc main_v27) = _
  after_results_simp
  rfl

variable (H : RegionValues)
include H

/-! ## Across the regions and the later stretches -/

theorem b2_v3 (c : Dev nD) : W2 m ρ c (Proc.devRef .tc main_v3) = (val_main_v3 (F := Ideal) (m ((c.tc : Thread nD τ).loc main_arg1))) :=
  (W2_of_ne m ρ c main_v3 (by decide)).trans (b1_v3 m ρ c)
theorem b2_v6 (c : Dev nD) : W2 m ρ c (Proc.devRef .tc main_v6) = (val_main_v6 (F := Ideal) (m ((c.tc : Thread nD τ).loc main_arg1))) :=
  (W2_of_ne m ρ c main_v6 (by decide)).trans (b1_v6 m ρ c)
theorem b2_v27 (c : Dev nD) : W2 m ρ c (Proc.devRef .tc main_v27) = (val_main_v27 (F := Ideal) (m ((c.tc : Thread nD τ).loc main_arg1))) :=
  (W2_of_ne m ρ c main_v27 (by decide)).trans (b1_v27 m ρ c)
theorem b2_arg4 (c : Dev nD) : W2 m ρ c (Proc.devRef .tc main_arg4) = m ((c.tc : Thread nD τ).loc main_arg4) :=
  (W2_of_ne m ρ c main_arg4 (by decide)).trans (b1_arg4 m ρ c)
theorem b2_arg5 (c : Dev nD) : W2 m ρ c (Proc.devRef .tc main_arg5) = m ((c.tc : Thread nD τ).loc main_arg5) :=
  (W2_of_ne m ρ c main_arg5 (by decide)).trans (b1_arg5 m ρ c)
theorem b2_arg6 (c : Dev nD) : W2 m ρ c (Proc.devRef .tc main_arg6) = m ((c.tc : Thread nD τ).loc main_arg6) :=
  (W2_of_ne m ρ c main_arg6 (by decide)).trans (b1_arg6 m ρ c)
theorem b2_arg7 (c : Dev nD) : W2 m ρ c (Proc.devRef .tc main_arg7) = m ((c.tc : Thread nD τ).loc main_arg7) :=
  (W2_of_ne m ρ c main_arg7 (by decide)).trans (b1_arg7 m ρ c)
theorem b2_arg8 (c : Dev nD) : W2 m ρ c (Proc.devRef .tc main_arg8) = m ((c.tc : Thread nD τ).loc main_arg8) :=
  (W2_of_ne m ρ c main_arg8 (by decide)).trans (b1_arg8 m ρ c)
theorem b2_arg9 (c : Dev nD) : W2 m ρ c (Proc.devRef .tc main_arg9) = m ((c.tc : Thread nD τ).loc main_arg9) :=
  (W2_of_ne m ρ c main_arg9 (by decide)).trans (b1_arg9 m ρ c)
theorem b2_arg10 (c : Dev nD) : W2 m ρ c (Proc.devRef .tc main_arg10) = m ((c.tc : Thread nD τ).loc main_arg10) :=
  (W2_of_ne m ρ c main_arg10 (by decide)).trans (b1_arg10 m ρ c)
theorem b2_arg2 (c : Dev nD) : W2 m ρ c (Proc.devRef .tc main_arg2) = m ((c.tc : Thread nD τ).loc main_arg2) :=
  (W2_of_ne m ρ c main_arg2 (by decide)).trans (b1_arg2 m ρ c)
theorem b2_arg12 (c : Dev nD) : W2 m ρ c (Proc.devRef .tc main_arg12) = m ((c.tc : Thread nD τ).loc main_arg12) :=
  (W2_of_ne m ρ c main_arg12 (by decide)).trans (b1_arg12 m ρ c)
theorem b2_arg11 (c : Dev nD) : W2 m ρ c (Proc.devRef .tc main_arg11) = m ((c.tc : Thread nD τ).loc main_arg11) :=
  (W2_of_ne m ρ c main_arg11 (by decide)).trans (b1_arg11 m ρ c)
theorem b2_v30 (c : Dev nD) : W2 m ρ c (Proc.devRef .tc main_v30) = (val_main_v28 (F := Ideal) (m ((c.tc : Thread nD τ).loc main_arg0)) (m ((c.tc : Thread nD τ).loc main_arg3))) := by
  refine (W2_arr m ρ c 3).trans ?_
  rw [H.d0 (V1 m ρ) c]
  show Cert.Spec.mm 50000 5 32 (W1 m ρ c (Proc.devRef .tc main_arg0)) (W1 m ρ c (Proc.devRef .tc main_arg3)) = _
  rw [b1_arg0 m ρ c, b1_arg3 m ρ c]
  exact (Cert.ReferenceIdeal.Dense.ref0 _ _).symm
theorem b3_v3 (c : Dev nD) : W3 m ρ c (Proc.devRef .tc main_v3) = (val_main_v3 (F := Ideal) (m ((c.tc : Thread nD τ).loc main_arg1))) := by
  show StableHlo.after hostOps1 (W2 m ρ c) (Proc.devRef .tc main_v3) = _
  after_results_simp
  exact b2_v3 m ρ H c
theorem b3_v6 (c : Dev nD) : W3 m ρ c (Proc.devRef .tc main_v6) = (val_main_v6 (F := Ideal) (m ((c.tc : Thread nD τ).loc main_arg1))) := by
  show StableHlo.after hostOps1 (W2 m ρ c) (Proc.devRef .tc main_v6) = _
  after_results_simp
  exact b2_v6 m ρ H c
theorem b3_v27 (c : Dev nD) : W3 m ρ c (Proc.devRef .tc main_v27) = (val_main_v27 (F := Ideal) (m ((c.tc : Thread nD τ).loc main_arg1))) := by
  show StableHlo.after hostOps1 (W2 m ρ c) (Proc.devRef .tc main_v27) = _
  after_results_simp
  exact b2_v27 m ρ H c
theorem b3_arg5 (c : Dev nD) : W3 m ρ c (Proc.devRef .tc main_arg5) = m ((c.tc : Thread nD τ).loc main_arg5) := by
  show StableHlo.after hostOps1 (W2 m ρ c) (Proc.devRef .tc main_arg5) = _
  after_results_simp
  exact b2_arg5 m ρ H c
theorem b3_arg6 (c : Dev nD) : W3 m ρ c (Proc.devRef .tc main_arg6) = m ((c.tc : Thread nD τ).loc main_arg6) := by
  show StableHlo.after hostOps1 (W2 m ρ c) (Proc.devRef .tc main_arg6) = _
  after_results_simp
  exact b2_arg6 m ρ H c
theorem b3_arg7 (c : Dev nD) : W3 m ρ c (Proc.devRef .tc main_arg7) = m ((c.tc : Thread nD τ).loc main_arg7) := by
  show StableHlo.after hostOps1 (W2 m ρ c) (Proc.devRef .tc main_arg7) = _
  after_results_simp
  exact b2_arg7 m ρ H c
theorem b3_arg8 (c : Dev nD) : W3 m ρ c (Proc.devRef .tc main_arg8) = m ((c.tc : Thread nD τ).loc main_arg8) := by
  show StableHlo.after hostOps1 (W2 m ρ c) (Proc.devRef .tc main_arg8) = _
  after_results_simp
  exact b2_arg8 m ρ H c
theorem b3_arg9 (c : Dev nD) : W3 m ρ c (Proc.devRef .tc main_arg9) = m ((c.tc : Thread nD τ).loc main_arg9) := by
  show StableHlo.after hostOps1 (W2 m ρ c) (Proc.devRef .tc main_arg9) = _
  after_results_simp
  exact b2_arg9 m ρ H c
theorem b3_arg10 (c : Dev nD) : W3 m ρ c (Proc.devRef .tc main_arg10) = m ((c.tc : Thread nD τ).loc main_arg10) := by
  show StableHlo.after hostOps1 (W2 m ρ c) (Proc.devRef .tc main_arg10) = _
  after_results_simp
  exact b2_arg10 m ρ H c
theorem b3_arg2 (c : Dev nD) : W3 m ρ c (Proc.devRef .tc main_arg2) = m ((c.tc : Thread nD τ).loc main_arg2) := by
  show StableHlo.after hostOps1 (W2 m ρ c) (Proc.devRef .tc main_arg2) = _
  after_results_simp
  exact b2_arg2 m ρ H c
theorem b3_arg12 (c : Dev nD) : W3 m ρ c (Proc.devRef .tc main_arg12) = m ((c.tc : Thread nD τ).loc main_arg12) := by
  show StableHlo.after hostOps1 (W2 m ρ c) (Proc.devRef .tc main_arg12) = _
  after_results_simp
  exact b2_arg12 m ρ H c
theorem b3_arg11 (c : Dev nD) : W3 m ρ c (Proc.devRef .tc main_arg11) = m ((c.tc : Thread nD τ).loc main_arg11) := by
  show StableHlo.after hostOps1 (W2 m ρ c) (Proc.devRef .tc main_arg11) = _
  after_results_simp
  exact b2_arg11 m ρ H c
theorem b3_v42 (c : Dev nD) : W3 m ρ c (Proc.devRef .tc main_v42) = (val_main_v40 (F := Ideal) (m ((c.tc : Thread nD τ).loc main_arg0)) (m ((c.tc : Thread nD τ).loc main_arg1)) (m ((c.tc : Thread nD τ).loc main_arg3))) := by
  show StableHlo.after hostOps1 (W2 m ρ c) (Proc.devRef .tc main_v42) = _
  after_results_simp
  simp only [b2_v3 m ρ H c, b2_v6 m ρ H c, b2_v27 m ρ H c, b2_arg4 m ρ H c, b2_arg5 m ρ H c, b2_arg6 m ρ H c, b2_arg7 m ρ H c, b2_arg8 m ρ H c, b2_arg9 m ρ H c, b2_arg10 m ρ H c, b2_arg2 m ρ H c, b2_arg12 m ρ H c, b2_arg11 m ρ H c, b2_v30 m ρ H c]
  rfl
theorem b3_v43 (c : Dev nD) : W3 m ρ c (Proc.devRef .tc main_v43) = (val_main_v41 (F := Ideal) (m ((c.tc : Thread nD τ).loc main_arg4))) := by
  show StableHlo.after hostOps1 (W2 m ρ c) (Proc.devRef .tc main_v43) = _
  after_results_simp
  simp only [b2_v3 m ρ H c, b2_v6 m ρ H c, b2_v27 m ρ H c, b2_arg4 m ρ H c, b2_arg5 m ρ H c, b2_arg6 m ρ H c, b2_arg7 m ρ H c, b2_arg8 m ρ H c, b2_arg9 m ρ H c, b2_arg10 m ρ H c, b2_arg2 m ρ H c, b2_arg12 m ρ H c, b2_arg11 m ρ H c, b2_v30 m ρ H c]
  exact row32 _
theorem b4_v3 (c : Dev nD) : W4 m ρ c (Proc.devRef .tc main_v3) = (val_main_v3 (F := Ideal) (m ((c.tc : Thread nD τ).loc main_arg1))) :=
  (W4_of_ne m ρ c main_v3 (by decide)).trans (b3_v3 m ρ H c)
theorem b4_v6 (c : Dev nD) : W4 m ρ c (Proc.devRef .tc main_v6) = (val_main_v6 (F := Ideal) (m ((c.tc : Thread nD τ).loc main_arg1))) :=
  (W4_of_ne m ρ c main_v6 (by decide)).trans (b3_v6 m ρ H c)
theorem b4_v27 (c : Dev nD) : W4 m ρ c (Proc.devRef .tc main_v27) = (val_main_v27 (F := Ideal) (m ((c.tc : Thread nD τ).loc main_arg1))) :=
  (W4_of_ne m ρ c main_v27 (by decide)).trans (b3_v27 m ρ H c)
theorem b4_arg6 (c : Dev nD) : W4 m ρ c (Proc.devRef .tc main_arg6) = m ((c.tc : Thread nD τ).loc main_arg6) :=
  (W4_of_ne m ρ c main_arg6 (by decide)).trans (b3_arg6 m ρ H c)
theorem b4_arg7 (c : Dev nD) : W4 m ρ c (Proc.devRef .tc main_arg7) = m ((c.tc : Thread nD τ).loc main_arg7) :=
  (W4_of_ne m ρ c main_arg7 (by decide)).trans (b3_arg7 m ρ H c)
theorem b4_arg8 (c : Dev nD) : W4 m ρ c (Proc.devRef .tc main_arg8) = m ((c.tc : Thread nD τ).loc main_arg8) :=
  (W4_of_ne m ρ c main_arg8 (by decide)).trans (b3_arg8 m ρ H c)
theorem b4_arg9 (c : Dev nD) : W4 m ρ c (Proc.devRef .tc main_arg9) = m ((c.tc : Thread nD τ).loc main_arg9) :=
  (W4_of_ne m ρ c main_arg9 (by decide)).trans (b3_arg9 m ρ H c)
theorem b4_arg10 (c : Dev nD) : W4 m ρ c (Proc.devRef .tc main_arg10) = m ((c.tc : Thread nD τ).loc main_arg10) :=
  (W4_of_ne m ρ c main_arg10 (by decide)).trans (b3_arg10 m ρ H c)
theorem b4_arg2 (c : Dev nD) : W4 m ρ c (Proc.devRef .tc main_arg2) = m ((c.tc : Thread nD τ).loc main_arg2) :=
  (W4_of_ne m ρ c main_arg2 (by decide)).trans (b3_arg2 m ρ H c)
theorem b4_arg12 (c : Dev nD) : W4 m ρ c (Proc.devRef .tc main_arg12) = m ((c.tc : Thread nD τ).loc main_arg12) :=
  (W4_of_ne m ρ c main_arg12 (by decide)).trans (b3_arg12 m ρ H c)
theorem b4_arg11 (c : Dev nD) : W4 m ρ c (Proc.devRef .tc main_arg11) = m ((c.tc : Thread nD τ).loc main_arg11) :=
  (W4_of_ne m ρ c main_arg11 (by decide)).trans (b3_arg11 m ρ H c)
theorem b4_v44 (c : Dev nD) : W4 m ρ c (Proc.devRef .tc main_v44) = (val_main_v45 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  refine (W4_arr m ρ c 3).trans ?_
  rw [H.d1 (V3 m ρ) c]
  show Cert.Spec.mm 50000 32 64 (Cert.Spec.reluBias 50000 32 (W3 m ρ c (Proc.devRef .tc main_v42)) (W3 m ρ c (Proc.devRef .tc main_v43))) (W3 m ρ c (Proc.devRef .tc main_arg5)) = _
  rw [b3_v42 m ρ H c, b3_v43 m ρ H c, b3_arg5 m ρ H c]
  exact (Cert.ReferenceIdeal.Dense.ref1 _ _ _ _ _).symm
theorem b5_v3 (c : Dev nD) : W5 m ρ c (Proc.devRef .tc main_v3) = (val_main_v3 (F := Ideal) (m ((c.tc : Thread nD τ).loc main_arg1))) := by
  show StableHlo.after hostOps2 (W4 m ρ c) (Proc.devRef .tc main_v3) = _
  after_results_simp
  exact b4_v3 m ρ H c
theorem b5_v6 (c : Dev nD) : W5 m ρ c (Proc.devRef .tc main_v6) = (val_main_v6 (F := Ideal) (m ((c.tc : Thread nD τ).loc main_arg1))) := by
  show StableHlo.after hostOps2 (W4 m ρ c) (Proc.devRef .tc main_v6) = _
  after_results_simp
  exact b4_v6 m ρ H c
theorem b5_v27 (c : Dev nD) : W5 m ρ c (Proc.devRef .tc main_v27) = (val_main_v27 (F := Ideal) (m ((c.tc : Thread nD τ).loc main_arg1))) := by
  show StableHlo.after hostOps2 (W4 m ρ c) (Proc.devRef .tc main_v27) = _
  after_results_simp
  exact b4_v27 m ρ H c
theorem b5_arg7 (c : Dev nD) : W5 m ρ c (Proc.devRef .tc main_arg7) = m ((c.tc : Thread nD τ).loc main_arg7) := by
  show StableHlo.after hostOps2 (W4 m ρ c) (Proc.devRef .tc main_arg7) = _
  after_results_simp
  exact b4_arg7 m ρ H c
theorem b5_arg8 (c : Dev nD) : W5 m ρ c (Proc.devRef .tc main_arg8) = m ((c.tc : Thread nD τ).loc main_arg8) := by
  show StableHlo.after hostOps2 (W4 m ρ c) (Proc.devRef .tc main_arg8) = _
  after_results_simp
  exact b4_arg8 m ρ H c
theorem b5_arg9 (c : Dev nD) : W5 m ρ c (Proc.devRef .tc main_arg9) = m ((c.tc : Thread nD τ).loc main_arg9) := by
  show StableHlo.after hostOps2 (W4 m ρ c) (Proc.devRef .tc main_arg9) = _
  after_results_simp
  exact b4_arg9 m ρ H c
theorem b5_arg10 (c : Dev nD) : W5 m ρ c (Proc.devRef .tc main_arg10) = m ((c.tc : Thread nD τ).loc main_arg10) := by
  show StableHlo.after hostOps2 (W4 m ρ c) (Proc.devRef .tc main_arg10) = _
  after_results_simp
  exact b4_arg10 m ρ H c
theorem b5_arg2 (c : Dev nD) : W5 m ρ c (Proc.devRef .tc main_arg2) = m ((c.tc : Thread nD τ).loc main_arg2) := by
  show StableHlo.after hostOps2 (W4 m ρ c) (Proc.devRef .tc main_arg2) = _
  after_results_simp
  exact b4_arg2 m ρ H c
theorem b5_arg12 (c : Dev nD) : W5 m ρ c (Proc.devRef .tc main_arg12) = m ((c.tc : Thread nD τ).loc main_arg12) := by
  show StableHlo.after hostOps2 (W4 m ρ c) (Proc.devRef .tc main_arg12) = _
  after_results_simp
  exact b4_arg12 m ρ H c
theorem b5_arg11 (c : Dev nD) : W5 m ρ c (Proc.devRef .tc main_arg11) = m ((c.tc : Thread nD τ).loc main_arg11) := by
  show StableHlo.after hostOps2 (W4 m ρ c) (Proc.devRef .tc main_arg11) = _
  after_results_simp
  exact b4_arg11 m ρ H c
theorem b5_v56 (c : Dev nD) : W5 m ρ c (Proc.devRef .tc main_v56) = (val_main_v57 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))) := by
  show StableHlo.after hostOps2 (W4 m ρ c) (Proc.devRef .tc main_v56) = _
  after_results_simp
  simp only [b4_v3 m ρ H c, b4_v6 m ρ H c, b4_v27 m ρ H c, b4_arg6 m ρ H c, b4_arg7 m ρ H c, b4_arg8 m ρ H c, b4_arg9 m ρ H c, b4_arg10 m ρ H c, b4_arg2 m ρ H c, b4_arg12 m ρ H c, b4_arg11 m ρ H c, b4_v44 m ρ H c]
  rfl
theorem b5_v57 (c : Dev nD) : W5 m ρ c (Proc.devRef .tc main_v57) = (val_main_v58 (F := Ideal) (m ((c.tc : Thread nD τ).loc main_arg6))) := by
  show StableHlo.after hostOps2 (W4 m ρ c) (Proc.devRef .tc main_v57) = _
  after_results_simp
  simp only [b4_v3 m ρ H c, b4_v6 m ρ H c, b4_v27 m ρ H c, b4_arg6 m ρ H c, b4_arg7 m ρ H c, b4_arg8 m ρ H c, b4_arg9 m ρ H c, b4_arg10 m ρ H c, b4_arg2 m ρ H c, b4_arg12 m ρ H c, b4_arg11 m ρ H c, b4_v44 m ρ H c]
  exact row64 _
theorem b6_v3 (c : Dev nD) : W6 m ρ c (Proc.devRef .tc main_v3) = (val_main_v3 (F := Ideal) (m ((c.tc : Thread nD τ).loc main_arg1))) :=
  (W6_of_ne m ρ c main_v3 (by decide)).trans (b5_v3 m ρ H c)
theorem b6_v6 (c : Dev nD) : W6 m ρ c (Proc.devRef .tc main_v6) = (val_main_v6 (F := Ideal) (m ((c.tc : Thread nD τ).loc main_arg1))) :=
  (W6_of_ne m ρ c main_v6 (by decide)).trans (b5_v6 m ρ H c)
theorem b6_v27 (c : Dev nD) : W6 m ρ c (Proc.devRef .tc main_v27) = (val_main_v27 (F := Ideal) (m ((c.tc : Thread nD τ).loc main_arg1))) :=
  (W6_of_ne m ρ c main_v27 (by decide)).trans (b5_v27 m ρ H c)
theorem b6_arg8 (c : Dev nD) : W6 m ρ c (Proc.devRef .tc main_arg8) = m ((c.tc : Thread nD τ).loc main_arg8) :=
  (W6_of_ne m ρ c main_arg8 (by decide)).trans (b5_arg8 m ρ H c)
theorem b6_arg9 (c : Dev nD) : W6 m ρ c (Proc.devRef .tc main_arg9) = m ((c.tc : Thread nD τ).loc main_arg9) :=
  (W6_of_ne m ρ c main_arg9 (by decide)).trans (b5_arg9 m ρ H c)
theorem b6_arg10 (c : Dev nD) : W6 m ρ c (Proc.devRef .tc main_arg10) = m ((c.tc : Thread nD τ).loc main_arg10) :=
  (W6_of_ne m ρ c main_arg10 (by decide)).trans (b5_arg10 m ρ H c)
theorem b6_arg2 (c : Dev nD) : W6 m ρ c (Proc.devRef .tc main_arg2) = m ((c.tc : Thread nD τ).loc main_arg2) :=
  (W6_of_ne m ρ c main_arg2 (by decide)).trans (b5_arg2 m ρ H c)
theorem b6_arg12 (c : Dev nD) : W6 m ρ c (Proc.devRef .tc main_arg12) = m ((c.tc : Thread nD τ).loc main_arg12) :=
  (W6_of_ne m ρ c main_arg12 (by decide)).trans (b5_arg12 m ρ H c)
theorem b6_arg11 (c : Dev nD) : W6 m ρ c (Proc.devRef .tc main_arg11) = m ((c.tc : Thread nD τ).loc main_arg11) :=
  (W6_of_ne m ρ c main_arg11 (by decide)).trans (b5_arg11 m ρ H c)
theorem b6_v58 (c : Dev nD) : W6 m ρ c (Proc.devRef .tc main_v58) = (val_main_v62 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine (W6_arr m ρ c 3).trans ?_
  rw [H.d2 (V5 m ρ) c]
  show Cert.Spec.mm 50000 64 128 (Cert.Spec.reluBias 50000 64 (W5 m ρ c (Proc.devRef .tc main_v56)) (W5 m ρ c (Proc.devRef .tc main_v57))) (W5 m ρ c (Proc.devRef .tc main_arg7)) = _
  rw [b5_v56 m ρ H c, b5_v57 m ρ H c, b5_arg7 m ρ H c]
  exact (Cert.ReferenceIdeal.Dense.ref2 _ _ _ _ _ _ _).symm
theorem b7_v3 (c : Dev nD) : W7 m ρ c (Proc.devRef .tc main_v3) = (val_main_v3 (F := Ideal) (m ((c.tc : Thread nD τ).loc main_arg1))) := by
  show StableHlo.after hostOps3 (W6 m ρ c) (Proc.devRef .tc main_v3) = _
  after_results_simp
  exact b6_v3 m ρ H c
theorem b7_v6 (c : Dev nD) : W7 m ρ c (Proc.devRef .tc main_v6) = (val_main_v6 (F := Ideal) (m ((c.tc : Thread nD τ).loc main_arg1))) := by
  show StableHlo.after hostOps3 (W6 m ρ c) (Proc.devRef .tc main_v6) = _
  after_results_simp
  exact b6_v6 m ρ H c
theorem b7_v27 (c : Dev nD) : W7 m ρ c (Proc.devRef .tc main_v27) = (val_main_v27 (F := Ideal) (m ((c.tc : Thread nD τ).loc main_arg1))) := by
  show StableHlo.after hostOps3 (W6 m ρ c) (Proc.devRef .tc main_v27) = _
  after_results_simp
  exact b6_v27 m ρ H c
theorem b7_arg9 (c : Dev nD) : W7 m ρ c (Proc.devRef .tc main_arg9) = m ((c.tc : Thread nD τ).loc main_arg9) := by
  show StableHlo.after hostOps3 (W6 m ρ c) (Proc.devRef .tc main_arg9) = _
  after_results_simp
  exact b6_arg9 m ρ H c
theorem b7_arg10 (c : Dev nD) : W7 m ρ c (Proc.devRef .tc main_arg10) = m ((c.tc : Thread nD τ).loc main_arg10) := by
  show StableHlo.after hostOps3 (W6 m ρ c) (Proc.devRef .tc main_arg10) = _
  after_results_simp
  exact b6_arg10 m ρ H c
theorem b7_arg2 (c : Dev nD) : W7 m ρ c (Proc.devRef .tc main_arg2) = m ((c.tc : Thread nD τ).loc main_arg2) := by
  show StableHlo.after hostOps3 (W6 m ρ c) (Proc.devRef .tc main_arg2) = _
  after_results_simp
  exact b6_arg2 m ρ H c
theorem b7_arg12 (c : Dev nD) : W7 m ρ c (Proc.devRef .tc main_arg12) = m ((c.tc : Thread nD τ).loc main_arg12) := by
  show StableHlo.after hostOps3 (W6 m ρ c) (Proc.devRef .tc main_arg12) = _
  after_results_simp
  exact b6_arg12 m ρ H c
theorem b7_arg11 (c : Dev nD) : W7 m ρ c (Proc.devRef .tc main_arg11) = m ((c.tc : Thread nD τ).loc main_arg11) := by
  show StableHlo.after hostOps3 (W6 m ρ c) (Proc.devRef .tc main_arg11) = _
  after_results_simp
  exact b6_arg11 m ρ H c
theorem b7_v70 (c : Dev nD) : W7 m ρ c (Proc.devRef .tc main_v70) = (val_main_v74 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  show StableHlo.after hostOps3 (W6 m ρ c) (Proc.devRef .tc main_v70) = _
  after_results_simp
  simp only [b6_v3 m ρ H c, b6_v6 m ρ H c, b6_v27 m ρ H c, b6_arg8 m ρ H c, b6_arg9 m ρ H c, b6_arg10 m ρ H c, b6_arg2 m ρ H c, b6_arg12 m ρ H c, b6_arg11 m ρ H c, b6_v58 m ρ H c]
  rfl
theorem b7_v71 (c : Dev nD) : W7 m ρ c (Proc.devRef .tc main_v71) = (val_main_v75 (F := Ideal) (m ((c.tc : Thread nD τ).loc main_arg8))) := by
  show StableHlo.after hostOps3 (W6 m ρ c) (Proc.devRef .tc main_v71) = _
  after_results_simp
  simp only [b6_v3 m ρ H c, b6_v6 m ρ H c, b6_v27 m ρ H c, b6_arg8 m ρ H c, b6_arg9 m ρ H c, b6_arg10 m ρ H c, b6_arg2 m ρ H c, b6_arg12 m ρ H c, b6_arg11 m ρ H c, b6_v58 m ρ H c]
  exact row128 _
theorem b8_v3 (c : Dev nD) : W8 m ρ c (Proc.devRef .tc main_v3) = (val_main_v3 (F := Ideal) (m ((c.tc : Thread nD τ).loc main_arg1))) :=
  (W8_of_ne m ρ c main_v3 (by decide)).trans (b7_v3 m ρ H c)
theorem b8_v6 (c : Dev nD) : W8 m ρ c (Proc.devRef .tc main_v6) = (val_main_v6 (F := Ideal) (m ((c.tc : Thread nD τ).loc main_arg1))) :=
  (W8_of_ne m ρ c main_v6 (by decide)).trans (b7_v6 m ρ H c)
theorem b8_v27 (c : Dev nD) : W8 m ρ c (Proc.devRef .tc main_v27) = (val_main_v27 (F := Ideal) (m ((c.tc : Thread nD τ).loc main_arg1))) :=
  (W8_of_ne m ρ c main_v27 (by decide)).trans (b7_v27 m ρ H c)
theorem b8_arg10 (c : Dev nD) : W8 m ρ c (Proc.devRef .tc main_arg10) = m ((c.tc : Thread nD τ).loc main_arg10) :=
  (W8_of_ne m ρ c main_arg10 (by decide)).trans (b7_arg10 m ρ H c)
theorem b8_arg2 (c : Dev nD) : W8 m ρ c (Proc.devRef .tc main_arg2) = m ((c.tc : Thread nD τ).loc main_arg2) :=
  (W8_of_ne m ρ c main_arg2 (by decide)).trans (b7_arg2 m ρ H c)
theorem b8_arg12 (c : Dev nD) : W8 m ρ c (Proc.devRef .tc main_arg12) = m ((c.tc : Thread nD τ).loc main_arg12) :=
  (W8_of_ne m ρ c main_arg12 (by decide)).trans (b7_arg12 m ρ H c)
theorem b8_arg11 (c : Dev nD) : W8 m ρ c (Proc.devRef .tc main_arg11) = m ((c.tc : Thread nD τ).loc main_arg11) :=
  (W8_of_ne m ρ c main_arg11 (by decide)).trans (b7_arg11 m ρ H c)
theorem b8_v72 (c : Dev nD) : W8 m ρ c (Proc.devRef .tc main_v72) = (val_main_v79 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) := by
  refine (W8_arr m ρ c 3).trans ?_
  rw [H.d3 (V7 m ρ) c]
  show Cert.Spec.mm 50000 128 256 (Cert.Spec.reluBias 50000 128 (W7 m ρ c (Proc.devRef .tc main_v70)) (W7 m ρ c (Proc.devRef .tc main_v71))) (W7 m ρ c (Proc.devRef .tc main_arg9)) = _
  rw [b7_v70 m ρ H c, b7_v71 m ρ H c, b7_arg9 m ρ H c]
  exact (Cert.ReferenceIdeal.Dense.ref3 _ _ _ _ _ _ _ _ _).symm
theorem b9_arg2 (c : Dev nD) : W9 m ρ c (Proc.devRef .tc main_arg2) = m ((c.tc : Thread nD τ).loc main_arg2) := by
  show StableHlo.after hostOps4 (W8 m ρ c) (Proc.devRef .tc main_arg2) = _
  after_results_simp
  exact b8_arg2 m ρ H c
theorem b9_arg12 (c : Dev nD) : W9 m ρ c (Proc.devRef .tc main_arg12) = m ((c.tc : Thread nD τ).loc main_arg12) := by
  show StableHlo.after hostOps4 (W8 m ρ c) (Proc.devRef .tc main_arg12) = _
  after_results_simp
  exact b8_arg12 m ρ H c
theorem b9_arg11 (c : Dev nD) : W9 m ρ c (Proc.devRef .tc main_arg11) = m ((c.tc : Thread nD τ).loc main_arg11) := by
  show StableHlo.after hostOps4 (W8 m ρ c) (Proc.devRef .tc main_arg11) = _
  after_results_simp
  exact b8_arg11 m ρ H c
theorem b9_v87 (c : Dev nD) : W9 m ρ c (Proc.devRef .tc main_v87) = (val_main_v94 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show StableHlo.after hostOps4 (W8 m ρ c) (Proc.devRef .tc main_v87) = _
  after_results_simp
  simp only [b8_v3 m ρ H c, b8_v6 m ρ H c, b8_v27 m ρ H c, b8_arg10 m ρ H c, b8_arg2 m ρ H c, b8_arg12 m ρ H c, b8_arg11 m ρ H c, b8_v72 m ρ H c]
  rfl
end Cert.Chain

end
-- ==== Proof.ChainB.lean ====
/-
  The last host stretches before the classifier and the classifier itself, continuing the walk along the kernel's
  segment boundaries: the positive part of the last layer's aggregated features plus bias, the mean pool over graphs
  (a scatter-add of the rows by graph, divided by the graph sizes clamped below by one), and the classifier's region.
-/
import proofs.«138034_j79680233276088_1_alg».proof.Proof.ChainA

set_option maxRecDepth 16384

noncomputable section

namespace Cert.Chain

open Cert.ReferenceIdeal.Read Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)
/-- The inlined positive-part function's three operations, read at their buffers' own types. -/
theorem hostOps4_1_plain : (hostOps4_1 : List (HloOp τ sig (Elt Ideal)))
    = [StableHlo.nullary main_call0_cst (constant (F := Ideal) S_ .f32 0x00000000#32),
       StableHlo.unary main_call0_cst main_call0_v0 (broadcastInDim S50000x256 ![] bcast_S_S50000x256 : (⟨S_, .f32⟩ : BufTy).Contents (Elt Ideal) → (⟨S50000x256, .f32⟩ : BufTy).Contents (Elt Ideal)),
       StableHlo.binary main_v87 main_call0_v0 main_v88 (maximumf (F := Ideal) (s := S50000x256) (φ := .f32))] := rfl

variable (H : RegionValues)
include H

theorem b10_arg2 (c : Dev nD) : W10 m ρ c (Proc.devRef .tc main_arg2) = m ((c.tc : Thread nD τ).loc main_arg2) := by
  show StableHlo.after hostOps4_1 (W9 m ρ c) (Proc.devRef .tc main_arg2) = _
  have h_arg2 := b9_arg2 m ρ H c
  rw [hostOps4_1_plain]
  generalize W9 m ρ c = Wx at h_arg2 ⊢
  after_results_simp
  exact h_arg2
theorem b10_arg12 (c : Dev nD) : W10 m ρ c (Proc.devRef .tc main_arg12) = m ((c.tc : Thread nD τ).loc main_arg12) := by
  show StableHlo.after hostOps4_1 (W9 m ρ c) (Proc.devRef .tc main_arg12) = _
  have h_arg12 := b9_arg12 m ρ H c
  rw [hostOps4_1_plain]
  generalize W9 m ρ c = Wx at h_arg12 ⊢
  after_results_simp
  exact h_arg12
theorem b10_arg11 (c : Dev nD) : W10 m ρ c (Proc.devRef .tc main_arg11) = m ((c.tc : Thread nD τ).loc main_arg11) := by
  show StableHlo.after hostOps4_1 (W9 m ρ c) (Proc.devRef .tc main_arg11) = _
  have h_arg11 := b9_arg11 m ρ H c
  rw [hostOps4_1_plain]
  generalize W9 m ρ c = Wx at h_arg11 ⊢
  after_results_simp
  exact h_arg11
set_option maxHeartbeats 1000000 in
theorem b10_v88 (c : Dev nD) : W10 m ρ c (Proc.devRef .tc main_v88) = (val_main_v95 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show StableHlo.after hostOps4_1 (W9 m ρ c) (Proc.devRef .tc main_v88) = _
  have h_v87 := b9_v87 m ρ H c
  rw [hostOps4_1_plain]
  generalize W9 m ρ c = Wx at h_v87 ⊢
  after_results_simp
  simp only [h_v87]
  rfl
theorem b11_arg11 (c : Dev nD) : W11 m ρ c (Proc.devRef .tc main_arg11) = m ((c.tc : Thread nD τ).loc main_arg11) := by
  show StableHlo.after hostOps4_2 (W10 m ρ c) (Proc.devRef .tc main_arg11) = _
  have h_arg11 := b10_arg11 m ρ H c
  generalize W10 m ρ c = Wx at h_arg11 ⊢
  after_results_simp
  exact h_arg11
set_option maxHeartbeats 1000000 in
theorem b11_v100 (c : Dev nD) : W11 m ρ c (Proc.devRef .tc main_v100) = (val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  show StableHlo.after hostOps4_2 (W10 m ρ c) (Proc.devRef .tc main_v100) = _
  have h_arg2 := b10_arg2 m ρ H c
  have h_v88 := b10_v88 m ρ H c
  generalize W10 m ρ c = Wx at h_arg2 h_v88 ⊢
  after_results_simp
  simp only [h_arg2, h_v88]
  rfl
theorem b11_v101 (c : Dev nD) : W11 m ρ c (Proc.devRef .tc main_v101) = (val_main_v109 (F := Ideal) (m ((c.tc : Thread nD τ).loc main_arg12))) := by
  show StableHlo.after hostOps4_2 (W10 m ρ c) (Proc.devRef .tc main_v101) = _
  have h_arg12 := b10_arg12 m ρ H c
  generalize W10 m ρ c = Wx at h_arg12 ⊢
  after_results_simp
  simp only [h_arg12]
  exact row10 _

/-- The result buffer after the last region: the classifier of the pooled features the reference computes. -/
theorem result (c : Dev nD) : W12 m ρ c (Proc.devRef .tc main_v102) = Cert.SpecC.classify (val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11)) (val_main_v109 (F := Ideal) (m ((c.tc : Thread nD τ).loc main_arg12))) := by
  refine (W12_arr m ρ c 3).trans ?_
  rw [H.cl (V11 m ρ) c]
  show Cert.SpecC.classify (W11 m ρ c (Proc.devRef .tc main_v100)) (W11 m ρ c (Proc.devRef .tc main_arg11)) (W11 m ρ c (Proc.devRef .tc main_v101)) = _
  rw [b11_v100 m ρ H c, b11_arg11 m ρ H c, b11_v101 m ρ H c]

end Cert.Chain

end
-- ==== Proof.Dense0K.lean ====
/-
  The first dense stage of the network (5 features in, 32 out), on the extended reals, read off one row block at a time.

  The stage computes `R = X · W` for the `50000 × 5` feature array `X` and a `5 × 32` weight `W` (no bias row and no
  positive part in front of this product; the third window the stage is given is not read by its arithmetic). The grid has
  25 points; point `t` loads rows `2000 t … 2000 t + 1999` of `X` and the whole of `W`, and writes back the `2000 × 32`
  product of that row block with `W`. Entry `(p, q)` of that block product is `∑ k, X (2000 t + p, k) · W (k, q)`, which
  is entry `(2000 t + p, q)` of `R`: a row of a matrix product depends only on the same row of the left factor. The 25 row
  blocks tile the 50000 rows (row `r` lies in the block of point `r / 2000`), so after the last point the output array
  holds `R` everywhere.
-/
import proofs.«138034_j79680233276088_1_alg».proof.Proof.Gen.KernelIdeal.Frame
import proofs.«138034_j79680233276088_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.ShloMosaic.Pipeline (Dat)

namespace Cert.KernelIdeal.Dense0

open Cert.KernelIdeal Cert.KernelIdeal.Gen

theorem hz : (![0, 0] : Fin 2 → Nat) = fun _ => 0 := funext fun a => by fin_cases a <;> rfl

theorem lhs_row (j : S2000x32.Idx) (k : dot_S2000x5_S5x32_S2000x32_1_0_0_1_n_n.contr.Idx) :
    (dot_S2000x5_S5x32_S2000x32_1_0_0_1_n_n.lhsIdx j k 0).val = (j 0).val := by
  unfold DotDims.lhsIdx
  rw [dif_neg (show ¬(0 : Fin S2000x5.rank) ∈ dot_S2000x5_S5x32_S2000x32_1_0_0_1_n_n.lhsBatch by decide), dif_pos (show (0 : Fin S2000x5.rank) ∈ dot_S2000x5_S5x32_S2000x32_1_0_0_1_n_n.lhsNonContracting by decide)]
  rfl
theorem lhs_col (j : S2000x32.Idx) (k : dot_S2000x5_S5x32_S2000x32_1_0_0_1_n_n.contr.Idx) :
    (dot_S2000x5_S5x32_S2000x32_1_0_0_1_n_n.lhsIdx j k 1).val = (k ⟨0, by decide⟩).val :=
  dot_S2000x5_S5x32_S2000x32_1_0_0_1_n_n.lhsIdx_val_of_single rfl j k
theorem rhs_row (j : S2000x32.Idx) (k : dot_S2000x5_S5x32_S2000x32_1_0_0_1_n_n.contr.Idx) :
    (dot_S2000x5_S5x32_S2000x32_1_0_0_1_n_n.rhsIdx j k 0).val = (k ⟨0, by decide⟩).val :=
  dot_S2000x5_S5x32_S2000x32_1_0_0_1_n_n.rhsIdx_val_of_single rfl j k
theorem rhs_col (j : S2000x32.Idx) (k : dot_S2000x5_S5x32_S2000x32_1_0_0_1_n_n.contr.Idx) :
    (dot_S2000x5_S5x32_S2000x32_1_0_0_1_n_n.rhsIdx j k 1).val = (j 1).val := by
  unfold DotDims.rhsIdx
  rw [dif_neg (show ¬(1 : Fin S5x32.rank) ∈ dot_S2000x5_S5x32_S2000x32_1_0_0_1_n_n.rhsBatch by decide), dif_pos (show (1 : Fin S5x32.rank) ∈ dot_S2000x5_S5x32_S2000x32_1_0_0_1_n_n.rhsNonContracting by decide)]
  rfl

/-- The block product read at an entry. -/
theorem matmul_apply (y : FVec Ideal S2000x5 .bf16) (w : FVec Ideal S5x32 .bf16) (p : Fin 2000) (q : Fin 32) :
    FloatOps.matmul dot_S2000x5_S5x32_S2000x32_1_0_0_1_n_n none y w (constant S2000x32 .f32 0x00000000#32) (ix2 p q)
      = ∑ k : Fin 5, y (ix2 p k) * w (ix2 k q) := by
  rw [Ideal.matmul_constant_zero_apply, ← Equiv.sum_comp (contrEquiv1 dot_S2000x5_S5x32_S2000x32_1_0_0_1_n_n 5 rfl rfl).symm]
  refine Finset.sum_congr rfl fun k _ => ?_
  have hk := contrEquiv1_symm_val dot_S2000x5_S5x32_S2000x32_1_0_0_1_n_n 5 rfl rfl k
  have el : dot_S2000x5_S5x32_S2000x32_1_0_0_1_n_n.lhsIdx (ix2 p q) ((contrEquiv1 dot_S2000x5_S5x32_S2000x32_1_0_0_1_n_n 5 rfl rfl).symm k) = ix2 p k := funext fun a => Fin.ext (by
    match a with
    | ⟨0, _⟩ => exact lhs_row _ _
    | ⟨1, _⟩ => exact (lhs_col _ _).trans hk)
  have er : dot_S2000x5_S5x32_S2000x32_1_0_0_1_n_n.rhsIdx (ix2 p q) ((contrEquiv1 dot_S2000x5_S5x32_S2000x32_1_0_0_1_n_n 5 rfl rfl).symm k) = ix2 k q := funext fun a => Fin.ext (by
    match a with
    | ⟨0, _⟩ => exact (rhs_row _ _).trans hk
    | ⟨1, _⟩ => exact rhs_col _ _)
  rw [el, er]

set_option maxHeartbeats 400000 in
theorem pay_apply (x : Vec Ideal S2000x5 .f32) (w : Vec Ideal S5x32 .f32) (p : Fin 2000) (q : Fin 32) :
    k0_pay1 (F := Ideal) x w (ix2 p q) = ∑ k : Fin 5, x (ix2 p k) * w (ix2 k q) := by
  unfold k0_pay1
  refine (matmul_apply _ _ p q).trans ?_
  refine Finset.sum_congr rfl fun k _ => ?_
  rw [truncf_apply, truncf_apply]

/-- The printed index maps over the 25 grid points: the feature and output windows move one row block per point,
    the weight window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

set_option maxHeartbeats 400000 in
/-- The feature block of point `t` is rows `2000 t … 2000 t + 1999` of the feature array. -/
theorem blk0_apply (c : Dev nD) (t : Fin cfg0.N) (p : Fin 2000) (k : Fin 5) (r : Fin 50000) (hr : r.val = 2000 * t.val + p.val) :
    (iblk0 V c 0 t : Vec Ideal S2000x5 .f32) (ix2 p k) = (V c main_arg0 : S50000x5.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 5 + 1 * k.val = k.val; rw [e1]; omega

set_option maxHeartbeats 400000 in
/-- The weight block of every point is the whole weight array. -/
theorem blk1_apply (c : Dev nD) (t : Fin cfg0.N) (k : Fin 5) (q : Fin 32) :
    (iblk0 V c 1 t : Vec Ideal S5x32 .f32) (ix2 k q) = (V c main_arg3 : S5x32.Idx → EReal) (ix2 k q) := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 5 + 1 * k.val = k.val; rw [e0]; omega
  | ⟨1, _⟩ => show win0_1.index t (1 : Fin 2) * 32 + 1 * q.val = q.val; rw [e1]; omega

set_option maxHeartbeats 400000 in
/-- Entry `(p, q)` of the output block of point `t` sits at row `2000 t + p`, column `q` of the output array. -/
theorem blk3_emb (t : Fin cfg0.N) (p : Fin 2000) (q : Fin 32) (r : Fin 50000) (hr : r.val = 2000 * t.val + p.val) :
    (((cfg0.win 3).blk t).view.emb (ix2 p q) : S50000x32.Idx) = ix2 r q := by
  obtain ⟨-, -, -, -, e0, e1⟩ := idx_facts t
  funext a
  apply Fin.ext
  match a with
  | ⟨0, _⟩ => show win0_3.index t (0 : Fin 2) * 2000 + 1 * p.val = r.val; rw [e0, hr]; omega
  | ⟨1, _⟩ => show win0_3.index t (1 : Fin 2) * 32 + 1 * q.val = q.val; rw [e1]; omega

/-- The stage's output as one function of the arrays the region finds: the product of the features with the weight. -/
abbrev result (c : Dev nD) : S50000x32.Idx → EReal :=
  Cert.Spec.mm 50000 5 32 (V c main_arg0) (V c main_arg3)

set_option maxHeartbeats 400000 in
/-- What point `t` writes back is rows `2000 t … 2000 t + 1999` of the product: a row of a matrix product depends
    only on the same row of the left factor. -/
theorem flushed_eq (c : Dev nD) (t : Fin cfg0.N) :
    (dat0 (F := Ideal) V c).flushed 3 t = ((cfg0.win 3).blk t).view.read (Elt Ideal) (result V c) := by
  show (cfg0.win 3).cut (grid0.coords t) ((dat0 (F := Ideal) V c).after 3 t) = _
  rw [after0_3]
  unfold out0_3
  rw [View.canon_unit_zero hz]
  simp only [View.ld_unit_zero (S := S2000x5) hz, View.ld_unit_zero (S := S5x32) hz]
  funext j
  obtain ⟨p, q, rfl⟩ : ∃ (p : Fin 2000) (q : Fin 32), j = ix2 p q := ⟨j 0, j 1, eq_ix2 j⟩
  have ht : t.val < 25 := lt_of_lt_of_eq t.isLt (N_0 : cfg0.N = 25)
  have hp : p.val < 2000 := p.isLt
  let r : Fin 50000 := ⟨2000 * t.val + p.val, by omega⟩
  show k0_pay1 (F := Ideal) (iblk0 V c 0 t) (iblk0 V c 1 t) (ix2 p q)
    = result V c (((cfg0.win 3).blk t).view.emb (ix2 p q))
  rw [blk3_emb t p q r rfl]
  refine (pay_apply (iblk0 V c 0 t) (iblk0 V c 1 t) p q).trans ?_
  show _ = Cert.Spec.mm 50000 5 32 (V c main_arg0) (V c main_arg3) (ix2 r q)
  rw [Cert.Spec.mm_apply]
  refine Finset.sum_congr rfl fun k _ => ?_
  rw [blk0_apply V c t p k r rfl, blk1_apply V c t k q]

/-- An index of the output array is in point `t`'s block iff each coordinate is in the block's range on its axis. -/
theorem mem_blk (t : Fin cfg0.N) (i : S50000x32.Idx) :
    i ∈ ((cfg0.win 3).blk t).view.set ↔ ∀ a : Fin 2, win0_3.index t a * S2000x32.size a ≤ (i a).val ∧ (i a).val < win0_3.index t a * S2000x32.size a + S2000x32.size a := by
  show i ∈ ((View.whole main_v30).slice (win0_3.rect t)).set ↔ _
  rw [View.set_slice_whole, Rect.mem_set_unit]
  exact Iff.rfl

set_option maxHeartbeats 400000 in
/-- Every row of the output array is in the block of the point `row / 2000`. -/
theorem cover (i : S50000x32.Idx) :
    ∃ t : Fin cfg0.N, (cfg0.win 3).flush t = true ∧ i ∈ ((cfg0.win 3).blk t).view.set := by
  have hi0 : (i 0).val < 50000 := (i 0).isLt
  have hi1 : (i 1).val < 32 := (i 1).isLt
  have hN : cfg0.N = 25 := N_0
  let t : Fin cfg0.N := ⟨(i 0).val / 2000, by rw [hN]; omega⟩
  obtain ⟨-, -, -, -, e0, e1⟩ := idx_facts t
  have ht : t.val = (i 0).val / 2000 := rfl
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; rw [e0, ht]; omega
  | ⟨1, _⟩ => show win0_3.index t (1 : Fin 2) * 32 ≤ (i 1).val ∧ (i 1).val < win0_3.index t (1 : Fin 2) * 32 + 32; rw [e1]; omega

/-- The output array after the region: the whole product. -/
theorem final (V : (c : Dev nD) → (b : Ref sig .tc) → Buf (Elt Ideal) ((c : Thread nD τ).loc b)) (c : Dev nD) :
    (dat0 (F := Ideal) V c).arrAt 3 cfg0.N
      = Cert.Spec.mm 50000 5 32 (V c main_arg0) (V c main_arg3) :=
  (dat0 (F := Ideal) V c).arrAt_eq_of_cover 3 (result V c) (fun t _ => flushed_eq V c t) cover

end Cert.KernelIdeal.Dense0

end
-- ==== Proof.Dense1K.lean ====
/-
  A dense stage of the network (32 features in, 64 out), on the extended reals, read off one row block at a time.

  The stage computes `R = max (X + b) 0 · W` for a `50000 × 32` feature array `X`, a `1 × 32` bias row `b` and a
  `32 × 64` weight `W`. The grid has 25 points; point `t` loads rows `2000 t … 2000 t + 1999` of `X`, the bias row and
  the whole of `W`, and writes back the `2000 × 64` product of that row block with `W`. Entry `(p, q)` of that block
  product is `∑ k, max (X (2000 t + p, k) + b (0, k)) 0 · W (k, q)`, which is entry `(2000 t + p, q)` of `R`:
  a row of a matrix product depends only on the same row of the left factor. The 25 row blocks tile the 50000 rows
  (row `r` lies in the block of point `r / 2000`), so after the last point the output array holds `R` everywhere.
-/
import proofs.«138034_j79680233276088_1_alg».proof.Proof.Gen.KernelIdeal.Frame
import proofs.«138034_j79680233276088_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.ShloMosaic.Pipeline (Dat)

namespace Cert.KernelIdeal.Dense1

open Cert.KernelIdeal Cert.KernelIdeal.Gen

theorem hz : (![0, 0] : Fin 2 → Nat) = fun _ => 0 := funext fun a => by fin_cases a <;> rfl

theorem lhs_row (j : S2000x64.Idx) (k : dot_S2000x32_S32x64_S2000x64_1_0_0_1_n_n.contr.Idx) :
    (dot_S2000x32_S32x64_S2000x64_1_0_0_1_n_n.lhsIdx j k 0).val = (j 0).val := by
  unfold DotDims.lhsIdx
  rw [dif_neg (show ¬(0 : Fin S2000x32.rank) ∈ dot_S2000x32_S32x64_S2000x64_1_0_0_1_n_n.lhsBatch by decide), dif_pos (show (0 : Fin S2000x32.rank) ∈ dot_S2000x32_S32x64_S2000x64_1_0_0_1_n_n.lhsNonContracting by decide)]
  rfl
theorem lhs_col (j : S2000x64.Idx) (k : dot_S2000x32_S32x64_S2000x64_1_0_0_1_n_n.contr.Idx) :
    (dot_S2000x32_S32x64_S2000x64_1_0_0_1_n_n.lhsIdx j k 1).val = (k ⟨0, by decide⟩).val :=
  dot_S2000x32_S32x64_S2000x64_1_0_0_1_n_n.lhsIdx_val_of_single rfl j k
theorem rhs_row (j : S2000x64.Idx) (k : dot_S2000x32_S32x64_S2000x64_1_0_0_1_n_n.contr.Idx) :
    (dot_S2000x32_S32x64_S2000x64_1_0_0_1_n_n.rhsIdx j k 0).val = (k ⟨0, by decide⟩).val :=
  dot_S2000x32_S32x64_S2000x64_1_0_0_1_n_n.rhsIdx_val_of_single rfl j k
theorem rhs_col (j : S2000x64.Idx) (k : dot_S2000x32_S32x64_S2000x64_1_0_0_1_n_n.contr.Idx) :
    (dot_S2000x32_S32x64_S2000x64_1_0_0_1_n_n.rhsIdx j k 1).val = (j 1).val := by
  unfold DotDims.rhsIdx
  rw [dif_neg (show ¬(1 : Fin S32x64.rank) ∈ dot_S2000x32_S32x64_S2000x64_1_0_0_1_n_n.rhsBatch by decide), dif_pos (show (1 : Fin S32x64.rank) ∈ dot_S2000x32_S32x64_S2000x64_1_0_0_1_n_n.rhsNonContracting by decide)]
  rfl

/-- The block product read at an entry. -/
theorem matmul_apply (y : FVec Ideal S2000x32 .bf16) (w : FVec Ideal S32x64 .bf16) (p : Fin 2000) (q : Fin 64) :
    FloatOps.matmul dot_S2000x32_S32x64_S2000x64_1_0_0_1_n_n none y w (constant S2000x64 .f32 0x00000000#32) (ix2 p q)
      = ∑ k : Fin 32, y (ix2 p k) * w (ix2 k q) := by
  rw [Ideal.matmul_constant_zero_apply, ← Equiv.sum_comp (contrEquiv1 dot_S2000x32_S32x64_S2000x64_1_0_0_1_n_n 32 rfl rfl).symm]
  refine Finset.sum_congr rfl fun k _ => ?_
  have hk := contrEquiv1_symm_val dot_S2000x32_S32x64_S2000x64_1_0_0_1_n_n 32 rfl rfl k
  have el : dot_S2000x32_S32x64_S2000x64_1_0_0_1_n_n.lhsIdx (ix2 p q) ((contrEquiv1 dot_S2000x32_S32x64_S2000x64_1_0_0_1_n_n 32 rfl rfl).symm k) = ix2 p k := funext fun a => Fin.ext (by
    match a with
    | ⟨0, _⟩ => exact lhs_row _ _
    | ⟨1, _⟩ => exact (lhs_col _ _).trans hk)
  have er : dot_S2000x32_S32x64_S2000x64_1_0_0_1_n_n.rhsIdx (ix2 p q) ((contrEquiv1 dot_S2000x32_S32x64_S2000x64_1_0_0_1_n_n 32 rfl rfl).symm k) = ix2 k q := funext fun a => Fin.ext (by
    match a with
    | ⟨0, _⟩ => exact (rhs_row _ _).trans hk
    | ⟨1, _⟩ => exact rhs_col _ _)
  rw [el, er]

set_option maxHeartbeats 400000 in
theorem pay_apply (x : Vec Ideal S2000x32 .f32) (b : Vec Ideal S1x32 .f32) (w : Vec Ideal S32x64 .f32) (p : Fin 2000) (q : Fin 64) :
    k1_pay1 (F := Ideal) x b w (ix2 p q) = ∑ k : Fin 32, max (x (ix2 p k) + b (ix2 (0 : Fin 1) k)) 0 * w (ix2 k q) := by
  unfold k1_pay1
  refine (matmul_apply _ _ p q).trans ?_
  refine Finset.sum_congr rfl fun k _ => ?_
  have h0 : (FloatOps.ofBits (F := Ideal) FTy.f32 0#32) = (0 : EReal) := Ideal.ofBits_zero_f32
  rw [truncf_apply, truncf_apply, maximumf_apply, addf_apply, broadcast_apply, shapeCast_self, shapeCast_self,
    broadcastTo_1b_ab_apply, h0]

/-- The printed index maps over the 25 grid points: the feature and output windows move one row block per point,
    the weight and bias windows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

set_option maxHeartbeats 400000 in
/-- The feature block of point `t` is rows `2000 t … 2000 t + 1999` of the feature array. -/
theorem blk0_apply (c : Dev nD) (t : Fin cfg1.N) (p : Fin 2000) (k : Fin 32) (r : Fin 50000) (hr : r.val = 2000 * t.val + p.val) :
    (iblk1 V c 0 t : Vec Ideal S2000x32 .f32) (ix2 p k) = (V c main_v42 : S50000x32.Idx → EReal) (ix2 r k) := by
  obtain ⟨e0, e1, -⟩ := idx_facts t
  unfold iblk1
  rw [View.read_apply]
  show V c main_v42 _ = V c main_v42 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 32 + 1 * k.val = k.val; rw [e1]; omega

set_option maxHeartbeats 400000 in
/-- The weight block of every point is the whole weight array. -/
theorem blk1_apply (c : Dev nD) (t : Fin cfg1.N) (k : Fin 32) (q : Fin 64) :
    (iblk1 V c 1 t : Vec Ideal S32x64 .f32) (ix2 k q) = (V c main_arg5 : S32x64.Idx → EReal) (ix2 k q) := by
  obtain ⟨-, -, e0, e1, -⟩ := idx_facts t
  unfold iblk1
  rw [View.read_apply]
  show V c main_arg5 _ = V c main_arg5 _
  congr 1
  funext a
  apply Fin.ext
  match a with
  | ⟨0, _⟩ => show win1_1.index t (0 : Fin 2) * 32 + 1 * k.val = k.val; rw [e0]; omega
  | ⟨1, _⟩ => show win1_1.index t (1 : Fin 2) * 64 + 1 * q.val = q.val; rw [e1]; omega

set_option maxHeartbeats 400000 in
/-- The bias block of every point is the whole bias row. -/
theorem blk2_apply (c : Dev nD) (t : Fin cfg1.N) (z : Fin 1) (k : Fin 32) :
    (iblk1 V c 2 t : Vec Ideal S1x32 .f32) (ix2 z k) = (V c main_v43 : S1x32.Idx → EReal) (ix2 z k) := by
  obtain ⟨-, -, -, -, e0, e1, -⟩ := idx_facts t
  unfold iblk1
  rw [View.read_apply]
  show V c main_v43 _ = V c main_v43 _
  congr 1
  funext a
  apply Fin.ext
  match a with
  | ⟨0, _⟩ => show win1_2.index t (0 : Fin 2) * 1 + 1 * z.val = z.val; rw [e0]; omega
  | ⟨1, _⟩ => show win1_2.index t (1 : Fin 2) * 32 + 1 * k.val = k.val; rw [e1]; omega

set_option maxHeartbeats 400000 in
/-- Entry `(p, q)` of the output block of point `t` sits at row `2000 t + p`, column `q` of the output array. -/
theorem blk3_emb (t : Fin cfg1.N) (p : Fin 2000) (q : Fin 64) (r : Fin 50000) (hr : r.val = 2000 * t.val + p.val) :
    (((cfg1.win 3).blk t).view.emb (ix2 p q) : S50000x64.Idx) = ix2 r q := by
  obtain ⟨-, -, -, -, -, -, e0, e1⟩ := idx_facts t
  funext a
  apply Fin.ext
  match a with
  | ⟨0, _⟩ => show win1_3.index t (0 : Fin 2) * 2000 + 1 * p.val = r.val; rw [e0, hr]; omega
  | ⟨1, _⟩ => show win1_3.index t (1 : Fin 2) * 64 + 1 * q.val = q.val; rw [e1]; omega

/-- The layer's output as one function of the arrays the region finds: the product of the positive part of
    (features + bias row) with the weight. -/
abbrev result (c : Dev nD) : S50000x64.Idx → EReal :=
  Cert.Spec.mm 50000 32 64 (Cert.Spec.reluBias 50000 32 (V c main_v42) (V c main_v43)) (V c main_arg5)

set_option maxHeartbeats 400000 in
/-- What point `t` writes back is rows `2000 t … 2000 t + 1999` of the product: a row of a matrix product depends
    only on the same row of the left factor. -/
theorem flushed_eq (c : Dev nD) (t : Fin cfg1.N) :
    (dat1 (F := Ideal) V c).flushed 3 t = ((cfg1.win 3).blk t).view.read (Elt Ideal) (result V c) := by
  show (cfg1.win 3).cut (grid1.coords t) ((dat1 (F := Ideal) V c).after 3 t) = _
  rw [after1_3]
  unfold out1_3
  rw [View.canon_unit_zero hz]
  simp only [View.ld_unit_zero (S := S2000x32) hz, View.ld_unit_zero (S := S1x32) hz, View.ld_unit_zero (S := S32x64) hz]
  funext j
  obtain ⟨p, q, rfl⟩ : ∃ (p : Fin 2000) (q : Fin 64), j = ix2 p q := ⟨j 0, j 1, eq_ix2 j⟩
  have ht : t.val < 25 := lt_of_lt_of_eq t.isLt (N_1 : cfg1.N = 25)
  have hp : p.val < 2000 := p.isLt
  let r : Fin 50000 := ⟨2000 * t.val + p.val, by omega⟩
  show k1_pay1 (F := Ideal) (iblk1 V c 0 t) (iblk1 V c 2 t) (iblk1 V c 1 t) (ix2 p q)
    = result V c (((cfg1.win 3).blk t).view.emb (ix2 p q))
  rw [blk3_emb t p q r rfl]
  refine (pay_apply (iblk1 V c 0 t) (iblk1 V c 2 t) (iblk1 V c 1 t) p q).trans ?_
  show _ = Cert.Spec.mm 50000 32 64 (Cert.Spec.reluBias 50000 32 (V c main_v42) (V c main_v43)) (V c main_arg5) (ix2 r q)
  rw [Cert.Spec.mm_apply]
  refine Finset.sum_congr rfl fun k _ => ?_
  rw [Cert.Spec.reluBias_apply, blk0_apply V c t p k r rfl, blk1_apply V c t k q, blk2_apply V c t 0 k]

/-- An index of the output array is in point `t`'s block iff each coordinate is in the block's range on its axis. -/
theorem mem_blk (t : Fin cfg1.N) (i : S50000x64.Idx) :
    i ∈ ((cfg1.win 3).blk t).view.set ↔ ∀ a : Fin 2, win1_3.index t a * S2000x64.size a ≤ (i a).val ∧ (i a).val < win1_3.index t a * S2000x64.size a + S2000x64.size a := by
  show i ∈ ((View.whole main_v44).slice (win1_3.rect t)).set ↔ _
  rw [View.set_slice_whole, Rect.mem_set_unit]
  exact Iff.rfl

set_option maxHeartbeats 400000 in
/-- Every row of the output array is in the block of the point `row / 2000`. -/
theorem cover (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, -, -, e0, e1⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; rw [e0, ht]; omega
  | ⟨1, _⟩ => show win1_3.index t (1 : Fin 2) * 64 ≤ (i 1).val ∧ (i 1).val < win1_3.index t (1 : Fin 2) * 64 + 64; rw [e1]; omega

/-- The output array after the region: the whole product. -/
theorem final (V : (c : Dev nD) → (b : Ref sig .tc) → Buf (Elt Ideal) ((c : Thread nD τ).loc b)) (c : Dev nD) :
    (dat1 (F := Ideal) V c).arrAt 3 cfg1.N
      = Cert.Spec.mm 50000 32 64 (Cert.Spec.reluBias 50000 32 (V c main_v42) (V c main_v43)) (V c main_arg5) :=
  (dat1 (F := Ideal) V c).arrAt_eq_of_cover 3 (result V c) (fun t _ => flushed_eq V c t) cover

end Cert.KernelIdeal.Dense1

end
-- ==== Proof.Dense2K.lean ====
/-
  A dense stage of the network (64 features in, 128 out), on the extended reals, read off one row block at a time.

  The stage computes `R = max (X + b) 0 · W` for a `50000 × 64` feature array `X`, a `1 × 64` bias row `b` and a
  `64 × 128` weight `W`. The grid has 25 points; point `t` loads rows `2000 t … 2000 t + 1999` of `X`, the bias row and
  the whole of `W`, and writes back the `2000 × 128` product of that row block with `W`. Entry `(p, q)` of that block
  product is `∑ k, max (X (2000 t + p, k) + b (0, k)) 0 · W (k, q)`, which is entry `(2000 t + p, q)` of `R`:
  a row of a matrix product depends only on the same row of the left factor. The 25 row blocks tile the 50000 rows
  (row `r` lies in the block of point `r / 2000`), so after the last point the output array holds `R` everywhere.
-/
import proofs.«138034_j79680233276088_1_alg».proof.Proof.Gen.KernelIdeal.Frame
import proofs.«138034_j79680233276088_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.ShloMosaic.Pipeline (Dat)

namespace Cert.KernelIdeal.Dense2

open Cert.KernelIdeal Cert.KernelIdeal.Gen

theorem hz : (![0, 0] : Fin 2 → Nat) = fun _ => 0 := funext fun a => by fin_cases a <;> rfl

theorem lhs_row (j : S2000x128.Idx) (k : dot_S2000x64_S64x128_S2000x128_1_0_0_1_n_n.contr.Idx) :
    (dot_S2000x64_S64x128_S2000x128_1_0_0_1_n_n.lhsIdx j k 0).val = (j 0).val := by
  unfold DotDims.lhsIdx
  rw [dif_neg (show ¬(0 : Fin S2000x64.rank) ∈ dot_S2000x64_S64x128_S2000x128_1_0_0_1_n_n.lhsBatch by decide), dif_pos (show (0 : Fin S2000x64.rank) ∈ dot_S2000x64_S64x128_S2000x128_1_0_0_1_n_n.lhsNonContracting by decide)]
  rfl
theorem lhs_col (j : S2000x128.Idx) (k : dot_S2000x64_S64x128_S2000x128_1_0_0_1_n_n.contr.Idx) :
    (dot_S2000x64_S64x128_S2000x128_1_0_0_1_n_n.lhsIdx j k 1).val = (k ⟨0, by decide⟩).val :=
  dot_S2000x64_S64x128_S2000x128_1_0_0_1_n_n.lhsIdx_val_of_single rfl j k
theorem rhs_row (j : S2000x128.Idx) (k : dot_S2000x64_S64x128_S2000x128_1_0_0_1_n_n.contr.Idx) :
    (dot_S2000x64_S64x128_S2000x128_1_0_0_1_n_n.rhsIdx j k 0).val = (k ⟨0, by decide⟩).val :=
  dot_S2000x64_S64x128_S2000x128_1_0_0_1_n_n.rhsIdx_val_of_single rfl j k
theorem rhs_col (j : S2000x128.Idx) (k : dot_S2000x64_S64x128_S2000x128_1_0_0_1_n_n.contr.Idx) :
    (dot_S2000x64_S64x128_S2000x128_1_0_0_1_n_n.rhsIdx j k 1).val = (j 1).val := by
  unfold DotDims.rhsIdx
  rw [dif_neg (show ¬(1 : Fin S64x128.rank) ∈ dot_S2000x64_S64x128_S2000x128_1_0_0_1_n_n.rhsBatch by decide), dif_pos (show (1 : Fin S64x128.rank) ∈ dot_S2000x64_S64x128_S2000x128_1_0_0_1_n_n.rhsNonContracting by decide)]
  rfl

/-- The block product read at an entry. -/
theorem matmul_apply (y : FVec Ideal S2000x64 .bf16) (w : FVec Ideal S64x128 .bf16) (p : Fin 2000) (q : Fin 128) :
    FloatOps.matmul dot_S2000x64_S64x128_S2000x128_1_0_0_1_n_n none y w (constant S2000x128 .f32 0x00000000#32) (ix2 p q)
      = ∑ k : Fin 64, y (ix2 p k) * w (ix2 k q) := by
  rw [Ideal.matmul_constant_zero_apply, ← Equiv.sum_comp (contrEquiv1 dot_S2000x64_S64x128_S2000x128_1_0_0_1_n_n 64 rfl rfl).symm]
  refine Finset.sum_congr rfl fun k _ => ?_
  have hk := contrEquiv1_symm_val dot_S2000x64_S64x128_S2000x128_1_0_0_1_n_n 64 rfl rfl k
  have el : dot_S2000x64_S64x128_S2000x128_1_0_0_1_n_n.lhsIdx (ix2 p q) ((contrEquiv1 dot_S2000x64_S64x128_S2000x128_1_0_0_1_n_n 64 rfl rfl).symm k) = ix2 p k := funext fun a => Fin.ext (by
    match a with
    | ⟨0, _⟩ => exact lhs_row _ _
    | ⟨1, _⟩ => exact (lhs_col _ _).trans hk)
  have er : dot_S2000x64_S64x128_S2000x128_1_0_0_1_n_n.rhsIdx (ix2 p q) ((contrEquiv1 dot_S2000x64_S64x128_S2000x128_1_0_0_1_n_n 64 rfl rfl).symm k) = ix2 k q := funext fun a => Fin.ext (by
    match a with
    | ⟨0, _⟩ => exact (rhs_row _ _).trans hk
    | ⟨1, _⟩ => exact rhs_col _ _)
  rw [el, er]

set_option maxHeartbeats 400000 in
theorem pay_apply (x : Vec Ideal S2000x64 .f32) (b : Vec Ideal S1x64 .f32) (w : Vec Ideal S64x128 .f32) (p : Fin 2000) (q : Fin 128) :
    k2_pay1 (F := Ideal) x b w (ix2 p q) = ∑ k : Fin 64, max (x (ix2 p k) + b (ix2 (0 : Fin 1) k)) 0 * w (ix2 k q) := by
  unfold k2_pay1
  refine (matmul_apply _ _ p q).trans ?_
  refine Finset.sum_congr rfl fun k _ => ?_
  have h0 : (FloatOps.ofBits (F := Ideal) FTy.f32 0#32) = (0 : EReal) := Ideal.ofBits_zero_f32
  rw [truncf_apply, truncf_apply, maximumf_apply, addf_apply, broadcast_apply, shapeCast_self, shapeCast_self,
    broadcastTo_1b_ab_apply, h0]

/-- The printed index maps over the 25 grid points: the feature and output windows move one row block per point,
    the weight and bias windows stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

set_option maxHeartbeats 400000 in
/-- The feature block of point `t` is rows `2000 t … 2000 t + 1999` of the feature array. -/
theorem blk0_apply (c : Dev nD) (t : Fin cfg2.N) (p : Fin 2000) (k : Fin 64) (r : Fin 50000) (hr : r.val = 2000 * t.val + p.val) :
    (iblk2 V c 0 t : Vec Ideal S2000x64 .f32) (ix2 p k) = (V c main_v56 : S50000x64.Idx → EReal) (ix2 r k) := by
  obtain ⟨e0, e1, -⟩ := idx_facts t
  unfold iblk2
  rw [View.read_apply]
  show V c main_v56 _ = V c main_v56 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

set_option maxHeartbeats 400000 in
/-- The weight block of every point is the whole weight array. -/
theorem blk1_apply (c : Dev nD) (t : Fin cfg2.N) (k : Fin 64) (q : Fin 128) :
    (iblk2 V c 1 t : Vec Ideal S64x128 .f32) (ix2 k q) = (V c main_arg7 : S64x128.Idx → EReal) (ix2 k q) := by
  obtain ⟨-, -, e0, e1, -⟩ := idx_facts t
  unfold iblk2
  rw [View.read_apply]
  show V c main_arg7 _ = V c main_arg7 _
  congr 1
  funext a
  apply Fin.ext
  match a with
  | ⟨0, _⟩ => show win2_1.index t (0 : Fin 2) * 64 + 1 * k.val = k.val; rw [e0]; omega
  | ⟨1, _⟩ => show win2_1.index t (1 : Fin 2) * 128 + 1 * q.val = q.val; rw [e1]; omega

set_option maxHeartbeats 400000 in
/-- The bias block of every point is the whole bias row. -/
theorem blk2_apply (c : Dev nD) (t : Fin cfg2.N) (z : Fin 1) (k : Fin 64) :
    (iblk2 V c 2 t : Vec Ideal S1x64 .f32) (ix2 z k) = (V c main_v57 : S1x64.Idx → EReal) (ix2 z k) := by
  obtain ⟨-, -, -, -, e0, e1, -⟩ := idx_facts t
  unfold iblk2
  rw [View.read_apply]
  show V c main_v57 _ = V c main_v57 _
  congr 1
  funext a
  apply Fin.ext
  match a with
  | ⟨0, _⟩ => show win2_2.index t (0 : Fin 2) * 1 + 1 * z.val = z.val; rw [e0]; omega
  | ⟨1, _⟩ => show win2_2.index t (1 : Fin 2) * 64 + 1 * k.val = k.val; rw [e1]; omega

set_option maxHeartbeats 400000 in
/-- Entry `(p, q)` of the output block of point `t` sits at row `2000 t + p`, column `q` of the output array. -/
theorem blk3_emb (t : Fin cfg2.N) (p : Fin 2000) (q : Fin 128) (r : Fin 50000) (hr : r.val = 2000 * t.val + p.val) :
    (((cfg2.win 3).blk t).view.emb (ix2 p q) : S50000x128.Idx) = ix2 r q := by
  obtain ⟨-, -, -, -, -, -, e0, e1⟩ := idx_facts t
  funext a
  apply Fin.ext
  match a with
  | ⟨0, _⟩ => show win2_3.index t (0 : Fin 2) * 2000 + 1 * p.val = r.val; rw [e0, hr]; omega
  | ⟨1, _⟩ => show win2_3.index t (1 : Fin 2) * 128 + 1 * q.val = q.val; rw [e1]; omega

/-- The layer's output as one function of the arrays the region finds: the product of the positive part of
    (features + bias row) with the weight. -/
abbrev result (c : Dev nD) : S50000x128.Idx → EReal :=
  Cert.Spec.mm 50000 64 128 (Cert.Spec.reluBias 50000 64 (V c main_v56) (V c main_v57)) (V c main_arg7)

set_option maxHeartbeats 400000 in
/-- What point `t` writes back is rows `2000 t … 2000 t + 1999` of the product: a row of a matrix product depends
    only on the same row of the left factor. -/
theorem flushed_eq (c : Dev nD) (t : Fin cfg2.N) :
    (dat2 (F := Ideal) V c).flushed 3 t = ((cfg2.win 3).blk t).view.read (Elt Ideal) (result V c) := by
  show (cfg2.win 3).cut (grid2.coords t) ((dat2 (F := Ideal) V c).after 3 t) = _
  rw [after2_3]
  unfold out2_3
  rw [View.canon_unit_zero hz]
  simp only [View.ld_unit_zero (S := S2000x64) hz, View.ld_unit_zero (S := S1x64) hz, View.ld_unit_zero (S := S64x128) hz]
  funext j
  obtain ⟨p, q, rfl⟩ : ∃ (p : Fin 2000) (q : Fin 128), j = ix2 p q := ⟨j 0, j 1, eq_ix2 j⟩
  have ht : t.val < 25 := lt_of_lt_of_eq t.isLt (N_2 : cfg2.N = 25)
  have hp : p.val < 2000 := p.isLt
  let r : Fin 50000 := ⟨2000 * t.val + p.val, by omega⟩
  show k2_pay1 (F := Ideal) (iblk2 V c 0 t) (iblk2 V c 2 t) (iblk2 V c 1 t) (ix2 p q)
    = result V c (((cfg2.win 3).blk t).view.emb (ix2 p q))
  rw [blk3_emb t p q r rfl]
  refine (pay_apply (iblk2 V c 0 t) (iblk2 V c 2 t) (iblk2 V c 1 t) p q).trans ?_
  show _ = Cert.Spec.mm 50000 64 128 (Cert.Spec.reluBias 50000 64 (V c main_v56) (V c main_v57)) (V c main_arg7) (ix2 r q)
  rw [Cert.Spec.mm_apply]
  refine Finset.sum_congr rfl fun k _ => ?_
  rw [Cert.Spec.reluBias_apply, blk0_apply V c t p k r rfl, blk1_apply V c t k q, blk2_apply V c t 0 k]

/-- An index of the output array is in point `t`'s block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v58).slice (win2_3.rect t)).set ↔ _
  rw [View.set_slice_whole, Rect.mem_set_unit]
  exact Iff.rfl

set_option maxHeartbeats 400000 in
/-- Every row of the output array is in the block of the point `row / 2000`. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, e0, e1⟩ := idx_facts t
  have ht : t.val = (i 0).val / 2000 := rfl
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; rw [e0, ht]; omega
  | ⟨1, _⟩ => show win2_3.index t (1 : Fin 2) * 128 ≤ (i 1).val ∧ (i 1).val < win2_3.index t (1 : Fin 2) * 128 + 128; rw [e1]; omega

/-- The output array after the region: the whole product. -/
theorem final (V : (c : Dev nD) → (b : Ref sig .tc) → Buf (Elt Ideal) ((c : Thread nD τ).loc b)) (c : Dev nD) :
    (dat2 (F := Ideal) V c).arrAt 3 cfg2.N
      = Cert.Spec.mm 50000 64 128 (Cert.Spec.reluBias 50000 64 (V c main_v56) (V c main_v57)) (V c main_arg7) :=
  (dat2 (F := Ideal) V c).arrAt_eq_of_cover 3 (result V c) (fun t _ => flushed_eq V c t) cover

end Cert.KernelIdeal.Dense2

end
-- ==== Proof.Dense3K.lean ====
/-
  A dense stage of the network (128 features in, 256 out), on the extended reals, read off one row block at a time.

  The stage computes `R = max (X + b) 0 · W` for a `50000 × 128` feature array `X`, a `1 × 128` bias row `b` and a
  `128 × 256` weight `W`. The grid has 25 points; point `t` loads rows `2000 t … 2000 t + 1999` of `X`, the bias row and
  the whole of `W`, and writes back the `2000 × 256` product of that row block with `W`. Entry `(p, q)` of that block
  product is `∑ k, max (X (2000 t + p, k) + b (0, k)) 0 · W (k, q)`, which is entry `(2000 t + p, q)` of `R`:
  a row of a matrix product depends only on the same row of the left factor. The 25 row blocks tile the 50000 rows
  (row `r` lies in the block of point `r / 2000`), so after the last point the output array holds `R` everywhere.
-/
import proofs.«138034_j79680233276088_1_alg».proof.Proof.Gen.KernelIdeal.Frame
import proofs.«138034_j79680233276088_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx
open Idealize.ShloMosaic.Pipeline (Dat)

namespace Cert.KernelIdeal.Dense3

open Cert.KernelIdeal Cert.KernelIdeal.Gen

theorem hz : (![0, 0] : Fin 2 → Nat) = fun _ => 0 := funext fun a => by fin_cases a <;> rfl

theorem lhs_row (j : S2000x256.Idx) (k : dot_S2000x128_S128x256_S2000x256_1_0_0_1_n_n.contr.Idx) :
    (dot_S2000x128_S128x256_S2000x256_1_0_0_1_n_n.lhsIdx j k 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_col (j : S2000x256.Idx) (k : dot_S2000x128_S128x256_S2000x256_1_0_0_1_n_n.contr.Idx) :
    (dot_S2000x128_S128x256_S2000x256_1_0_0_1_n_n.lhsIdx j k 1).val = (k ⟨0, by decide⟩).val :=
  dot_S2000x128_S128x256_S2000x256_1_0_0_1_n_n.lhsIdx_val_of_single rfl j k
theorem rhs_row (j : S2000x256.Idx) (k : dot_S2000x128_S128x256_S2000x256_1_0_0_1_n_n.contr.Idx) :
    (dot_S2000x128_S128x256_S2000x256_1_0_0_1_n_n.rhsIdx j k 0).val = (k ⟨0, by decide⟩).val :=
  dot_S2000x128_S128x256_S2000x256_1_0_0_1_n_n.rhsIdx_val_of_single rfl j k
theorem rhs_col (j : S2000x256.Idx) (k : dot_S2000x128_S128x256_S2000x256_1_0_0_1_n_n.contr.Idx) :
    (dot_S2000x128_S128x256_S2000x256_1_0_0_1_n_n.rhsIdx j k 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block product read at an entry. -/
theorem matmul_apply (y : FVec Ideal S2000x128 .bf16) (w : FVec Ideal S128x256 .bf16) (p : Fin 2000) (q : Fin 256) :
    FloatOps.matmul dot_S2000x128_S128x256_S2000x256_1_0_0_1_n_n none y w (constant S2000x256 .f32 0x00000000#32) (ix2 p q)
      = ∑ k : Fin 128, y (ix2 p k) * w (ix2 k q) := by
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er]

set_option maxHeartbeats 400000 in
theorem pay_apply (x : Vec Ideal S2000x128 .f32) (b : Vec Ideal S1x128 .f32) (w : Vec Ideal S128x256 .f32) (p : Fin 2000) (q : Fin 256) :
    k3_pay1 (F := Ideal) x b w (ix2 p q) = ∑ k : Fin 128, max (x (ix2 p k) + b (ix2 (0 : Fin 1) k)) 0 * w (ix2 k q) := by
  unfold k3_pay1
  refine (matmul_apply _ _ p q).trans ?_
  refine Finset.sum_congr rfl fun k _ => ?_
  have h0 : (FloatOps.ofBits (F := Ideal) FTy.f32 0#32) = (0 : EReal) := Ideal.ofBits_zero_f32
  rw [truncf_apply, truncf_apply, maximumf_apply, addf_apply, broadcast_apply, shapeCast_self, shapeCast_self,
    broadcastTo_1b_ab_apply, h0]

/-- The printed index maps over the 25 grid points: the feature and output windows move one row block per point,
    the weight and bias windows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

variable (V : (c : Dev nD) → (b : Ref sig .tc) → Buf (Elt Ideal) ((c : Thread nD τ).loc b))

set_option maxHeartbeats 400000 in
/-- The feature block of point `t` is rows `2000 t … 2000 t + 1999` of the feature array. -/
theorem blk0_apply (c : Dev nD) (t : Fin cfg3.N) (p : Fin 2000) (k : Fin 128) (r : Fin 50000) (hr : r.val = 2000 * t.val + p.val) :
    (iblk3 V c 0 t : Vec Ideal S2000x128 .f32) (ix2 p k) = (V c main_v70 : S50000x128.Idx → EReal) (ix2 r k) := by
  obtain ⟨e0, e1, -⟩ := idx_facts t
  unfold iblk3
  rw [View.read_apply]
  show V c main_v70 _ = V c main_v70 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * k.val = k.val; rw [e1]; omega

set_option maxHeartbeats 400000 in
/-- The weight block of every point is the whole weight array. -/
theorem blk1_apply (c : Dev nD) (t : Fin cfg3.N) (k : Fin 128) (q : Fin 256) :
    (iblk3 V c 1 t : Vec Ideal S128x256 .f32) (ix2 k q) = (V c main_arg9 : S128x256.Idx → EReal) (ix2 k q) := by
  obtain ⟨-, -, e0, e1, -⟩ := idx_facts t
  unfold iblk3
  rw [View.read_apply]
  show V c main_arg9 _ = V c main_arg9 _
  congr 1
  funext a
  apply Fin.ext
  match a with
  | ⟨0, _⟩ => show win3_1.index t (0 : Fin 2) * 128 + 1 * k.val = k.val; rw [e0]; omega
  | ⟨1, _⟩ => show win3_1.index t (1 : Fin 2) * 256 + 1 * q.val = q.val; rw [e1]; omega

set_option maxHeartbeats 400000 in
/-- The bias block of every point is the whole bias row. -/
theorem blk2_apply (c : Dev nD) (t : Fin cfg3.N) (z : Fin 1) (k : Fin 128) :
    (iblk3 V c 2 t : Vec Ideal S1x128 .f32) (ix2 z k) = (V c main_v71 : S1x128.Idx → EReal) (ix2 z k) := by
  obtain ⟨-, -, -, -, e0, e1, -⟩ := idx_facts t
  unfold iblk3
  rw [View.read_apply]
  show V c main_v71 _ = V c main_v71 _
  congr 1
  funext a
  apply Fin.ext
  match a with
  | ⟨0, _⟩ => show win3_2.index t (0 : Fin 2) * 1 + 1 * z.val = z.val; rw [e0]; omega
  | ⟨1, _⟩ => show win3_2.index t (1 : Fin 2) * 128 + 1 * k.val = k.val; rw [e1]; omega

set_option maxHeartbeats 400000 in
/-- Entry `(p, q)` of the output block of point `t` sits at row `2000 t + p`, column `q` of the output array. -/
theorem blk3_emb (t : Fin cfg3.N) (p : Fin 2000) (q : Fin 256) (r : Fin 50000) (hr : r.val = 2000 * t.val + p.val) :
    (((cfg3.win 3).blk t).view.emb (ix2 p q) : S50000x256.Idx) = ix2 r q := by
  obtain ⟨-, -, -, -, -, -, e0, e1⟩ := idx_facts t
  funext a
  apply Fin.ext
  match a with
  | ⟨0, _⟩ => show win3_3.index t (0 : Fin 2) * 2000 + 1 * p.val = r.val; rw [e0, hr]; omega
  | ⟨1, _⟩ => show win3_3.index t (1 : Fin 2) * 256 + 1 * q.val = q.val; rw [e1]; omega

/-- The layer's output as one function of the arrays the region finds: the product of the positive part of
    (features + bias row) with the weight. -/
abbrev result (c : Dev nD) : S50000x256.Idx → EReal :=
  Cert.Spec.mm 50000 128 256 (Cert.Spec.reluBias 50000 128 (V c main_v70) (V c main_v71)) (V c main_arg9)

set_option maxHeartbeats 400000 in
/-- What point `t` writes back is rows `2000 t … 2000 t + 1999` of the product: a row of a matrix product depends
    only on the same row of the left factor. -/
theorem flushed_eq (c : Dev nD) (t : Fin cfg3.N) :
    (dat3 (F := Ideal) V c).flushed 3 t = ((cfg3.win 3).blk t).view.read (Elt Ideal) (result V c) := by
  show (cfg3.win 3).cut (grid3.coords t) ((dat3 (F := Ideal) V c).after 3 t) = _
  rw [after3_3]
  unfold out3_3
  rw [View.canon_unit_zero hz]
  simp only [View.ld_unit_zero (S := S2000x128) hz, View.ld_unit_zero (S := S1x128) hz, View.ld_unit_zero (S := S128x256) hz]
  funext j
  obtain ⟨p, q, rfl⟩ : ∃ (p : Fin 2000) (q : Fin 256), j = ix2 p q := ⟨j 0, j 1, eq_ix2 j⟩
  have ht : t.val < 25 := lt_of_lt_of_eq t.isLt (N_3 : cfg3.N = 25)
  have hp : p.val < 2000 := p.isLt
  let r : Fin 50000 := ⟨2000 * t.val + p.val, by omega⟩
  show k3_pay1 (F := Ideal) (iblk3 V c 0 t) (iblk3 V c 2 t) (iblk3 V c 1 t) (ix2 p q)
    = result V c (((cfg3.win 3).blk t).view.emb (ix2 p q))
  rw [blk3_emb t p q r rfl]
  refine (pay_apply (iblk3 V c 0 t) (iblk3 V c 2 t) (iblk3 V c 1 t) p q).trans ?_
  show _ = Cert.Spec.mm 50000 128 256 (Cert.Spec.reluBias 50000 128 (V c main_v70) (V c main_v71)) (V c main_arg9) (ix2 r q)
  rw [Cert.Spec.mm_apply]
  refine Finset.sum_congr rfl fun k _ => ?_
  rw [Cert.Spec.reluBias_apply, blk0_apply V c t p k r rfl, blk1_apply V c t k q, blk2_apply V c t 0 k]

/-- An index of the output array is in point `t`'s block iff each coordinate is in the block's range on its axis. -/
theorem mem_blk (t : Fin cfg3.N) (i : S50000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v72).slice (win3_3.rect t)).set ↔ _
  rw [View.set_slice_whole, Rect.mem_set_unit]
  exact Iff.rfl

set_option maxHeartbeats 400000 in
/-- Every row of the output array is in the block of the point `row / 2000`. -/
theorem cover (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have hN : cfg3.N = 25 := N_3
  let t : Fin cfg3.N := ⟨(i 0).val / 2000, by rw [hN]; omega⟩
  obtain ⟨-, -, -, -, -, -, e0, e1⟩ := idx_facts t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; rw [e0, ht]; omega
  | ⟨1, _⟩ => show win3_3.index t (1 : Fin 2) * 256 ≤ (i 1).val ∧ (i 1).val < win3_3.index t (1 : Fin 2) * 256 + 256; rw [e1]; omega

/-- The output array after the region: the whole product. -/
theorem final (V : (c : Dev nD) → (b : Ref sig .tc) → Buf (Elt Ideal) ((c : Thread nD τ).loc b)) (c : Dev nD) :
    (dat3 (F := Ideal) V c).arrAt 3 cfg3.N
      = Cert.Spec.mm 50000 128 256 (Cert.Spec.reluBias 50000 128 (V c main_v70) (V c main_v71)) (V c main_arg9) :=
  (dat3 (F := Ideal) V c).arrAt_eq_of_cover 3 (result V c) (fun t _ => flushed_eq V c t) cover

end Cert.KernelIdeal.Dense3

end
-- ==== Proof.ClassifyK.lean ====
/-
  The classifier region of the kernel, read entry by entry on the extended reals: its one grid point loads the
  whole pooled-feature array, the whole weight matrix and the bias row, stores the log-softmax of every row of
  (features · weights + bias), and that one block is the whole output array.
-/
import proofs.«138034_j79680233276088_1_alg».proof.Proof.Gen.KernelIdeal.Frame
import proofs.«138034_j79680233276088_1_alg».proof.Proof.SpecC
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Classify

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Two column layouts read at an index -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row index of a 64 × 10 array with column `k` put back is `(g, k)`. -/
theorem lift_row (h : S64x10.Reduces [1] S64) (g : Fin 64) (k : Fin (S64x10.size 1)) :
    h.lift (ix1 g) k = ix2 g (⟨k.val, k.isLt⟩ : Fin 10) :=
  funext fun a => Fin.ext (by match a with | ⟨0, _⟩ => rfl | ⟨1, _⟩ => rfl)

/-! ## The payload, operation by operation -/

/-- The logits the payload forms: the product into a zero accumulator plus the bias row on every row. -/
def logitsK (x0 : Vec Ideal S64x256 .f32) (x1 : Vec Ideal S256x10 .f32) (x2 : Vec Ideal S1x10 .f32) : FVec Ideal S64x10 .f32 :=
  addf (matmul dot_S64x256_S256x10_S64x10_1_0_0_1_n_n none
      (truncf .bf16 (shapeCast S64x256 x0 shapeCasts_S64x256_S64x256) bitsLt_bf16_f32) (truncf .bf16 x1 bitsLt_bf16_f32)
      (constant S64x10 .f32 0x00000000#32))
    (broadcastTo S64x10 (shapeCast S1x10 x2 shapeCasts_S1x10_S1x10) broadcasts_S1x10_S64x10)

/-- The row maxima the payload forms: the lane maximum from −∞, then once more the maximum with −∞. -/
def rowMaxK (Z : FVec Ideal S64x10 .f32) : FVec Ideal S64 .f32 :=
  maximumf (broadcast S64 (Scalar.ofBits .f32 0xFF800000#32))
    (multiReduction .maximumf [1] S64 Z 0xFF800000#32 reduces_S64x10_S64 (.inl rfl) rfl)

/-- The shifted logits the payload forms. -/
def shiftedK (Z : FVec Ideal S64x10 .f32) : FVec Ideal S64x10 .f32 :=
  subf Z (broadcastTo S64x10 (shapeCast S64x1 (rowMaxK Z) shapeCasts_S64_S64x1) broadcasts_S64x1_S64x10)

/-- The log-softmax the payload forms from the logits. -/
def logSoftmaxK (Z : FVec Ideal S64x10 .f32) : FVec Ideal S64x10 .f32 :=
  subf (shiftedK Z) (broadcastTo S64x10
    (log (shapeCast S64x1 (multiReduction .add [1] S64 (exp (shiftedK Z)) 0x00000000#32 reduces_S64x10_S64 (.inl rfl) rfl)
      shapeCasts_S64_S64x1)) broadcasts_S64x1_S64x10)

/-- The payload is the log-softmax of its logits. -/
theorem pay_eq (x0 : Vec Ideal S64x256 .f32) (x1 : Vec Ideal S256x10 .f32) (x2 : Vec Ideal S1x10 .f32) :
    k4_pay1 (F := Ideal) x0 x1 x2 = logSoftmaxK (logitsK x0 x1 x2) := rfl

/-! ## The product read at an entry -/

theorem lhsIdx_0 (i : S64x10.Idx) (q : dot_S64x256_S256x10_S64x10_1_0_0_1_n_n.contr.Idx) : (dot_S64x256_S256x10_S64x10_1_0_0_1_n_n.lhsIdx i q 0).val = (i 0).val := by
  unfold DotDims.lhsIdx
  rw [dif_neg (show ¬(0 : Fin S64x256.rank) ∈ dot_S64x256_S256x10_S64x10_1_0_0_1_n_n.lhsBatch by decide), dif_pos (show (0 : Fin S64x256.rank) ∈ dot_S64x256_S256x10_S64x10_1_0_0_1_n_n.lhsNonContracting by decide)]
  rfl
theorem lhsIdx_1 (i : S64x10.Idx) (q : dot_S64x256_S256x10_S64x10_1_0_0_1_n_n.contr.Idx) : (dot_S64x256_S256x10_S64x10_1_0_0_1_n_n.lhsIdx i q 1).val = (q ⟨0, by decide⟩).val :=
  dot_S64x256_S256x10_S64x10_1_0_0_1_n_n.lhsIdx_val_of_single rfl i q
theorem rhsIdx_0 (i : S64x10.Idx) (q : dot_S64x256_S256x10_S64x10_1_0_0_1_n_n.contr.Idx) : (dot_S64x256_S256x10_S64x10_1_0_0_1_n_n.rhsIdx i q 0).val = (q ⟨0, by decide⟩).val :=
  dot_S64x256_S256x10_S64x10_1_0_0_1_n_n.rhsIdx_val_of_single rfl i q
theorem rhsIdx_1 (i : S64x10.Idx) (q : dot_S64x256_S256x10_S64x10_1_0_0_1_n_n.contr.Idx) : (dot_S64x256_S256x10_S64x10_1_0_0_1_n_n.rhsIdx i q 1).val = (i 1).val := by
  unfold DotDims.rhsIdx
  rw [dif_neg (show ¬(1 : Fin S256x10.rank) ∈ dot_S64x256_S256x10_S64x10_1_0_0_1_n_n.rhsBatch by decide), dif_pos (show (1 : Fin S256x10.rank) ∈ dot_S64x256_S256x10_S64x10_1_0_0_1_n_n.rhsNonContracting by decide)]
  rfl

/-- The product into a zero accumulator, at entry `(g, j)`: the sum over `k` of the left factor at `(g, k)` times the
    right factor at `(k, j)`. -/
theorem matmulK_apply (y0 : FVec Ideal S64x256 .bf16) (y1 : FVec Ideal S256x10 .bf16) (g : Fin 64) (j : Fin 10) :
    matmul dot_S64x256_S256x10_S64x10_1_0_0_1_n_n none y0 y1 (constant (F := Ideal) S64x10 .f32 0x00000000#32) (ix2 g j)
      = ∑ k : Fin 256, y0 (ix2 g k) * y1 (ix2 k j) := by
  simp only [matmul]
  rw [Ideal.matmul_constant_zero_apply, ← Equiv.sum_comp (ValueIdx.contrEquiv1 dot_S64x256_S256x10_S64x10_1_0_0_1_n_n 256 rfl rfl).symm]
  refine Finset.sum_congr rfl fun k _ => ?_
  have hk := ValueIdx.contrEquiv1_symm_val dot_S64x256_S256x10_S64x10_1_0_0_1_n_n 256 rfl rfl k
  have el : dot_S64x256_S256x10_S64x10_1_0_0_1_n_n.lhsIdx (ix2 g j) ((ValueIdx.contrEquiv1 dot_S64x256_S256x10_S64x10_1_0_0_1_n_n 256 rfl rfl).symm k) = ix2 g k := funext fun a => Fin.ext (by
    match a with
    | ⟨0, _⟩ => exact lhsIdx_0 _ _
    | ⟨1, _⟩ => exact (lhsIdx_1 _ _).trans hk)
  have er : dot_S64x256_S256x10_S64x10_1_0_0_1_n_n.rhsIdx (ix2 g j) ((ValueIdx.contrEquiv1 dot_S64x256_S256x10_S64x10_1_0_0_1_n_n 256 rfl rfl).symm k) = ix2 k j := funext fun a => Fin.ext (by
    match a with
    | ⟨0, _⟩ => exact (rhsIdx_0 _ _).trans hk
    | ⟨1, _⟩ => exact rhsIdx_1 _ _)
  rw [el, er]

/-- The payload's logits are the specification's. -/
theorem logitsK_eq (x0 : Vec Ideal S64x256 .f32) (x1 : Vec Ideal S256x10 .f32) (x2 : Vec Ideal S1x10 .f32) :
    logitsK x0 x1 x2 = Cert.SpecC.logits x0 x1 x2 := by
  funext i
  obtain ⟨g, j, rfl⟩ : ∃ (g : Fin 64) (j : Fin 10), i = ix2 g j := ⟨i 0, i 1, eq_ix2 i⟩
  unfold logitsK
  rw [addf_apply, matmulK_apply, shapeCast_self, shapeCast_self, broadcastTo_1b_ab_apply, Cert.SpecC.logits_apply]
  rfl

/-! ## The row maximum, the shift, the log-softmax -/

/-- The lane maximum from −∞ over the columns, at row `g`: the fold of `max` from −∞ over the row. -/
theorem laneMax_apply (Z : FVec Ideal S64x10 .f32) (g : Fin 64) :
    multiReduction (F := Ideal) .maximumf [1] S64 Z 0xFF800000#32 reduces_S64x10_S64 (.inl rfl) rfl (ix1 g)
      = (Finset.univ : Finset (Fin 10)).fold max (Ideal.ofBits .f32 0xFF800000#32) (fun j => Z (ix2 g j)) := by
  refine (Ideal.multiReduction_maximumf_single Z 0xFF800000#32 reduces_S64x10_S64 (.inl rfl) rfl (ix1 g)).trans ?_
  have hf : (Z ∘ (reduces_S64x10_S64 : S64x10.Reduces [1] S64).lift (ix1 g)) = fun j : Fin 10 => Z (ix2 g j) :=
    funext fun k => congrArg Z (lift_row _ g k)
  rw [hf]
  rfl

/-- The lane sum over the columns, at row `g`: the sum over the row. -/
theorem laneSum_apply (Z : FVec Ideal S64x10 .f32) (g : Fin 64) :
    multiReduction (F := Ideal) .add [1] S64 Z 0x00000000#32 reduces_S64x10_S64 (.inl rfl) rfl (ix1 g)
      = ∑ j : Fin 10, Z (ix2 g j) := by
  refine (Ideal.multiReduction_add_single Z 0x00000000#32 reduces_S64x10_S64 (.inl rfl) rfl (ix1 g)).trans ?_
  exact Finset.sum_congr rfl fun k _ => congrArg Z (lift_row _ g k)

/-- The payload's row maximum is the specification's. -/
theorem rowMaxK_apply (Z : FVec Ideal S64x10 .f32) (g : Fin 64) : rowMaxK Z (ix1 g) = Cert.SpecC.rowMax Z g := by
  unfold rowMaxK
  rw [maximumf_apply, broadcast_apply, laneMax_apply]
  rfl

/-- The payload's shifted logits are the specification's. -/
theorem shiftedK_eq (Z : FVec Ideal S64x10 .f32) : shiftedK Z = Cert.SpecC.shifted Z := by
  funext i
  obtain ⟨g, j, rfl⟩ : ∃ (g : Fin 64) (j : Fin 10), i = ix2 g j := ⟨i 0, i 1, eq_ix2 i⟩
  unfold shiftedK
  rw [subf_apply, broadcastTo_a1_ab_apply, shapeCast_a_a1_apply, rowMaxK_apply, Cert.SpecC.shifted_apply]

/-- The payload's log-softmax is the specification's. -/
theorem logSoftmaxK_eq (Z : FVec Ideal S64x10 .f32) : logSoftmaxK Z = Cert.SpecC.logSoftmax Z := by
  funext i
  obtain ⟨g, j, rfl⟩ : ∃ (g : Fin 64) (j : Fin 10), i = ix2 g j := ⟨i 0, i 1, eq_ix2 i⟩
  unfold logSoftmaxK
  rw [subf_apply, broadcastTo_a1_ab_apply, shiftedK_eq, Cert.SpecC.logSoftmax_apply]
  show _ - FloatOps.log (shapeCast S64x1 _ shapeCasts_S64_S64x1 (ix2 g (0 : Fin 1))) = _
  rw [shapeCast_a_a1_apply, laneSum_apply]
  rfl

/-- The payload of the one store is the classifier head of the three loaded arrays. -/
theorem pay_classify (x0 : Vec Ideal S64x256 .f32) (x1 : Vec Ideal S256x10 .f32) (x2 : Vec Ideal S1x10 .f32) :
    k4_pay1 (F := Ideal) x0 x1 x2 = Cert.SpecC.classify x0 x1 x2 := by
  rw [pay_eq, logSoftmaxK_eq, logitsK_eq]
  rfl

/-! ## From the one block to the array -/

theorem zero_offsets : (![0, 0] : Fin 2 → Nat) = fun _ => 0 := funext fun a => by fin_cases a <;> rfl

section
variable (V : (c : Dev nD) → (b : Ref sig .tc) → Buf (Elt Ideal) ((c : Thread nD τ).loc b))

/-- The one grid point's block of the pooled features, read through zero offsets, is the whole array. -/
theorem features_block (c : Dev nD) : iblk4 (F := Ideal) V c 0 t4_0 = V c main_v100 := by
  unfold iblk4
  have zero_offsets' : (fun a => win4_0.index t4_0 a * main_v100.ty.shape.size a) = fun _ => 0 := funext fun a => by fin_cases a <;> decide
  exact Memref.read_access_unit_zero (Elt Ideal) main_v100 zero_offsets' (fun a => by rw [congrFun zero_offsets' a]; simp) (V c main_v100)

/-- … of the weight matrix likewise, -/
theorem weight_block (c : Dev nD) : iblk4 (F := Ideal) V c 1 t4_0 = V c main_arg11 := by
  unfold iblk4
  have zero_offsets' : (fun a => win4_1.index t4_0 a * main_arg11.ty.shape.size a) = fun _ => 0 := funext fun a => by fin_cases a <;> decide
  exact Memref.read_access_unit_zero (Elt Ideal) main_arg11 zero_offsets' (fun a => by rw [congrFun zero_offsets' a]; simp) (V c main_arg11)

/-- … and of the bias row. -/
theorem bias_block (c : Dev nD) : iblk4 (F := Ideal) V c 2 t4_0 = V c main_v101 := by
  unfold iblk4
  have zero_offsets' : (fun a => win4_2.index t4_0 a * main_v101.ty.shape.size a) = fun _ => 0 := funext fun a => by fin_cases a <;> decide
  exact Memref.read_access_unit_zero (Elt Ideal) main_v101 zero_offsets' (fun a => by rw [congrFun zero_offsets' a]; simp) (V c main_v101)

/-- What the one grid point writes back is the block — the whole — of the classifier head of the three arrays. -/
theorem writeback_eq (c : Dev nD) (t : Fin cfg4.N) :
    (dat4 (F := Ideal) V c).flushed 3 t
      = ((cfg4.win 3).blk t).view.read (Elt Ideal) (Cert.SpecC.classify (V c main_v100) (V c main_arg11) (V c main_v101)) := by
  obtain rfl : t = t4_0 := fin_N4 t
  show (cfg4.win 3).cut (grid4.coords t4_0) ((dat4 (F := Ideal) V c).after 3 t4_0) = _
  rw [after4_3]
  unfold out4_3
  rw [View.canon_unit_zero zero_offsets]
  simp only [View.ld_unit_zero (S := S64x256) zero_offsets, View.ld_unit_zero (S := S256x10) zero_offsets, View.ld_unit_zero (S := S1x10) zero_offsets]
  rw [pay_classify, features_block, weight_block, bias_block]
  have zero_offsets' : (fun a => win4_3.index t4_0 a * main_v102.ty.shape.size a) = fun _ => 0 := funext fun a => by fin_cases a <;> decide
  exact (Memref.read_access_unit_zero (Elt Ideal) main_v102 zero_offsets' (fun a => by rw [congrFun zero_offsets' a]; simp) _).symm

/-- After the region the output array holds the classifier head of the pooled features, the weight and the bias row. -/
theorem final (c : Dev nD) :
    (dat4 (F := Ideal) V c).arrAt 3 cfg4.N = Cert.SpecC.classify (V c main_v100) (V c main_arg11) (V c main_v101) :=
  (dat4 (F := Ideal) V c).arrAt_eq_of_cover 3 (Cert.SpecC.classify (V c main_v100) (V c main_arg11) (V c main_v101))
    (fun t _ => writeback_eq V c t) fun i =>
    ⟨t4_0, flush4_3 t4_0, by
      show i ∈ ((View.whole main_v102).slice (win4_3.rect t4_0)).set
      rw [View.set_slice_whole, Rect.mem_set_unit]
      intro a
      have h0 : (i 0 : Nat) < 64 := (i 0).isLt
      have h1 : (i 1 : Nat) < 10 := (i 1).isLt
      match a with
      | ⟨0, _⟩ => show win4_3.index t4_0 0 * win4_3.size 0 ≤ (i 0 : Nat) ∧ (i 0 : Nat) < win4_3.index t4_0 0 * win4_3.size 0 + win4_3.xsize (grid4.coords t4_0) 0
                  rw [show win4_3.index t4_0 0 * win4_3.size 0 = 0 from by decide +kernel, show win4_3.xsize (grid4.coords t4_0) 0 = 64 from by decide +kernel]; omega
      | ⟨1, _⟩ => show win4_3.index t4_0 1 * win4_3.size 1 ≤ (i 1 : Nat) ∧ (i 1 : Nat) < win4_3.index t4_0 1 * win4_3.size 1 + win4_3.xsize (grid4.coords t4_0) 1
                  rw [show win4_3.index t4_0 1 * win4_3.size 1 = 0 from by decide +kernel, show win4_3.xsize (grid4.coords t4_0) 1 = 10 from by decide +kernel]; omega⟩

end

end Cert.KernelIdeal.Classify

end
-- ==== Proof.ClassifyR.lean ====
/-
  The reference's classifier tail, read entry by entry on the extended reals, is the classifier head of the
  specification: a matrix product plus a bias row, then the log-softmax of every row — the row maximum folded
  from −∞, the shift by it, the exponentials summed from zero, the logarithm, the final subtraction.
  Every operation is read at an index; the only arithmetic fact used is 0 + x = x for the sum's initial value.
-/
import proofs.«138034_j79680233276088_1_alg».proof.Proof.Gen.ReferenceIdeal.Read
import proofs.«138034_j79680233276088_1_alg».proof.Proof.SpecC
import Idealize.ShloMosaic.PureOps.Ideal.Laws
import Idealize.ShloMosaic.Lib.ValueIdx

noncomputable section

namespace Cert.ReferenceIdeal.ClassifyR

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-! ## The index maps of the tail's layout operations, at explicit coordinates -/

theorem lidx_eq (g : Fin 64) (j : Fin 10) (k : Fin 256) : lidx_main_v108 (ix2 g j) k = ix2 g k :=
  funext fun a => Fin.ext (by match a with | ⟨0, _⟩ => rfl | ⟨1, _⟩ => rfl)

theorem ridx_eq (g : Fin 64) (j : Fin 10) (k : Fin 256) : ridx_main_v108 (ix2 g j) k = ix2 k j :=
  funext fun a => Fin.ext (by match a with | ⟨0, _⟩ => rfl | ⟨1, _⟩ => rfl)

theorem idx_bias (g : Fin 64) (j : Fin 10) : idx_main_v110 (ix2 g j) = ix2 (0 : Fin 1) j :=
  funext fun a => Fin.ext (by match a with | ⟨0, _⟩ => rfl | ⟨1, _⟩ => rfl)

theorem idx_col (g : Fin 64) (j : Fin 10) : idx_main_call4_v3 (idx_main_call4_v4 (ix2 g j)) = ix1 g :=
  funext fun a => Fin.ext (by match a with | ⟨0, _⟩ => rfl)

theorem idx_col' (g : Fin 64) (j : Fin 10) : idx_main_call4_v8 (idx_main_call4_v10 (ix2 g j)) = ix1 g :=
  funext fun a => Fin.ext (by match a with | ⟨0, _⟩ => rfl)

theorem idx_row (g : Fin 64) (k : Fin 10) : idx_main_call4_v7 (ix1 g) k = ix2 g k :=
  funext fun a => Fin.ext (by match a with | ⟨0, _⟩ => rfl | ⟨1, _⟩ => rfl)

/-- A row index with column `k` put back is `(g, k)`. -/
theorem lift_row (h : S64x10.Reduces [1] S64) (g : Fin 64) (k : Fin (S64x10.size 1)) :
    h.lift (ix1 g) k = ix2 g (⟨k.val, k.isLt⟩ : Fin 10) :=
  funext fun a => Fin.ext (by match a with | ⟨0, _⟩ => rfl | ⟨1, _⟩ => rfl)

/-- The host's maximum-reduce of a 64 × 10 array over its columns, started from −∞, at row `g`: the fold of `max`
    from −∞ over the ten entries of the row. -/
theorem hostRowMax (Z : FVec Ideal S64x10 .f32) (g : Fin 64) :
    Host.reduce FloatOps.maximumf Z (constant (F := Ideal) S_ .f32 0xFF800000#32) reducesTo_S64x10_S64_d1 h_S_ (ix1 g)
      = (Finset.univ : Finset (Fin 10)).fold max (Ideal.ofBits .f32 0xFF800000#32) (fun j => Z (ix2 g j)) := by
  rw [Host.reduce_eq_fold_single FloatOps.maximumf Z _ reducesTo_S64x10_S64_d1 (by decide) h_S_]
  have hf : (Z ∘ (by decide : S64x10.Reduces [1] S64).lift (ix1 g)) = fun j : Fin 10 => Z (ix2 g j) :=
    funext fun k => congrArg Z (lift_row _ g k)
  rw [hf]
  rfl

section
variable (x0 : (⟨S50000x5, .f32⟩ : BufTy).Contents (Elt Ideal)) (x1 : (⟨S2x800000, .i32⟩ : BufTy).Contents (Elt Ideal)) (x2 : (⟨S50000, .i32⟩ : BufTy).Contents (Elt Ideal)) (x3 : (⟨S5x32, .f32⟩ : BufTy).Contents (Elt Ideal)) (x4 : (⟨S32, .f32⟩ : BufTy).Contents (Elt Ideal)) (x5 : (⟨S32x64, .f32⟩ : BufTy).Contents (Elt Ideal)) (x6 : (⟨S64, .f32⟩ : BufTy).Contents (Elt Ideal)) (x7 : (⟨S64x128, .f32⟩ : BufTy).Contents (Elt Ideal)) (x8 : (⟨S128, .f32⟩ : BufTy).Contents (Elt Ideal)) (x9 : (⟨S128x256, .f32⟩ : BufTy).Contents (Elt Ideal)) (x10 : (⟨S256, .f32⟩ : BufTy).Contents (Elt Ideal)) (x11 : (⟨S256x10, .f32⟩ : BufTy).Contents (Elt Ideal)) (x12 : (⟨S10, .f32⟩ : BufTy).Contents (Elt Ideal))

/-- The logits: the product of the pooled features and the weight, plus the bias row on every row. -/
theorem logits_eq : val_main_v111 (F := Ideal) x0 x1 x2 x3 x4 x5 x6 x7 x8 x9 x10 x11 x12
    = Cert.SpecC.logits (val_main_v107 (F := Ideal) x0 x1 x2 x3 x4 x5 x6 x7 x8 x9 x10) x11 (val_main_v109 (F := Ideal) x12) := by
  funext i
  obtain ⟨g, j, rfl⟩ : ∃ (g : Fin 64) (j : Fin 10), i = ix2 g j := ⟨i 0, i 1, eq_ix2 i⟩
  rw [val_main_v111_apply, val_main_v108_apply, val_main_v110_apply, idx_bias, Cert.SpecC.logits_apply]
  simp only [lidx_eq, ridx_eq]
  rfl

/-- The host's maximum-reduce over the columns, at row `g`: the fold of `max` from −∞ over the row. -/
theorem rowfold_eq (g : Fin 64) : val_main_call4_v0 (F := Ideal) x0 x1 x2 x3 x4 x5 x6 x7 x8 x9 x10 x11 x12 (ix1 g)
    = (Finset.univ : Finset (Fin 10)).fold max (Ideal.ofBits .f32 0xFF800000#32)
        (fun j => val_main_v111 (F := Ideal) x0 x1 x2 x3 x4 x5 x6 x7 x8 x9 x10 x11 x12 (ix2 g j)) := by
  unfold val_main_call4_v0
  exact hostRowMax _ g

/-- The row maximum the reference subtracts is the specification's. -/
theorem rowMax_eq (g : Fin 64) : val_main_call4_v2 (F := Ideal) x0 x1 x2 x3 x4 x5 x6 x7 x8 x9 x10 x11 x12 (ix1 g)
    = Cert.SpecC.rowMax (val_main_v111 (F := Ideal) x0 x1 x2 x3 x4 x5 x6 x7 x8 x9 x10 x11 x12) g := by
  rw [val_main_call4_v2_apply, val_main_call4_v1_apply, val_main_call4_cst_0_apply, rowfold_eq]
  rfl

/-- The shifted logits. -/
theorem shifted_eq : val_main_call4_v5 (F := Ideal) x0 x1 x2 x3 x4 x5 x6 x7 x8 x9 x10 x11 x12
    = Cert.SpecC.shifted (val_main_v111 (F := Ideal) x0 x1 x2 x3 x4 x5 x6 x7 x8 x9 x10 x11 x12) := by
  funext i
  obtain ⟨g, j, rfl⟩ : ∃ (g : Fin 64) (j : Fin 10), i = ix2 g j := ⟨i 0, i 1, eq_ix2 i⟩
  rw [val_main_call4_v5_apply, val_main_call4_v4_apply, val_main_call4_v3_apply, idx_col, rowMax_eq,
    Cert.SpecC.shifted_apply]
  rfl

/-- The log-softmax of the logits. -/
theorem logSoftmax_eq : val_main_v112 (F := Ideal) x0 x1 x2 x3 x4 x5 x6 x7 x8 x9 x10 x11 x12
    = Cert.SpecC.logSoftmax (val_main_v111 (F := Ideal) x0 x1 x2 x3 x4 x5 x6 x7 x8 x9 x10 x11 x12) := by
  funext i
  obtain ⟨g, j, rfl⟩ : ∃ (g : Fin 64) (j : Fin 10), i = ix2 g j := ⟨i 0, i 1, eq_ix2 i⟩
  rw [val_main_v112_apply, val_main_call4_v10_apply, val_main_call4_v9_apply, val_main_call4_v8_apply, idx_col',
    val_main_call4_v7_apply, val_main_call4_cst_1_apply, Cert.SpecC.logSoftmax_apply]
  simp only [val_main_call4_v6_apply, idx_row, shifted_eq]
  simp only [Ideal.subf_def, Ideal.hostUnary_log_def, Ideal.hostUnary_exp_def, Ideal.ofBits_def, Ideal.ofBits_zero_f32,
    zero_add]

/-- The reference's tail is the classifier head of its pooled features, weight and bias row. -/
theorem tail_eq : val_main_v112 (F := Ideal) x0 x1 x2 x3 x4 x5 x6 x7 x8 x9 x10 x11 x12
    = Cert.SpecC.classify (val_main_v107 (F := Ideal) x0 x1 x2 x3 x4 x5 x6 x7 x8 x9 x10) x11 (val_main_v109 (F := Ideal) x12) := by
  rw [logSoftmax_eq, logits_eq]
  rfl

end

end Cert.ReferenceIdeal.ClassifyR

end
-- ==== Proof.lean ====
/-
  Four stacked graph-convolution layers, a mean pool over graphs, a linear classifier and a log-softmax: the
  Pallas program against its jnp reference, on the extended reals.

  Both programs build the same edge lists, degrees, symmetric normalisation, gathers and scatter-adds on the host, in
  the same order. They differ in where the dense transform of each layer runs: the reference multiplies the whole
  `50000 × d` array of (positive part of (aggregated features + bias)) by the weight matrix at once; the kernel
  cuts the rows into 25 blocks of 2000 and multiplies each block inside a tiled region, adding the previous layer's
  bias and taking the positive part there. A row of a matrix product depends only on the same row of the left factor,
  so the row blocks of the product are the products of the row blocks and the two arrangements give the same array;
  changes of float format are the identity on the extended reals. The classifier's product, bias and log-softmax run
  in a one-point region on one side and as host operations on the other, operation for operation.
  No law that needs finite operands is used: sums are only regrouped by rows, never distributed over.

  The frames are the generated ones (the reference's is its generated run with the result dropped); the
  idealization rewrote nothing, so `preserves` is trivial.
-/
import proofs.«138034_j79680233276088_1_alg».proof.Defs
import proofs.«138034_j79680233276088_1_alg».proof.Proof.Gen.Kernel
import proofs.«138034_j79680233276088_1_alg».proof.Proof.Gen.Kernel.Frame
import proofs.«138034_j79680233276088_1_alg».proof.Proof.Gen.KernelIdeal
import proofs.«138034_j79680233276088_1_alg».proof.Proof.Gen.KernelIdeal.Frame
import proofs.«138034_j79680233276088_1_alg».proof.Proof.Gen.ReferenceIdeal
import proofs.«138034_j79680233276088_1_alg».proof.Proof.Gen.Pre_finite_inputs
import proofs.«138034_j79680233276088_1_alg».proof.Proof.Gen.ReferenceIdeal.Run
import proofs.«138034_j79680233276088_1_alg».proof.Proof.Gen.ReferenceIdeal.Read
import proofs.«138034_j79680233276088_1_alg».proof.Proof.KRun
import proofs.«138034_j79680233276088_1_alg».proof.Proof.ChainB
import proofs.«138034_j79680233276088_1_alg».proof.Proof.Dense0K
import proofs.«138034_j79680233276088_1_alg».proof.Proof.Dense1K
import proofs.«138034_j79680233276088_1_alg».proof.Proof.Dense2K
import proofs.«138034_j79680233276088_1_alg».proof.Proof.Dense3K
import proofs.«138034_j79680233276088_1_alg».proof.Proof.ClassifyK
import proofs.«138034_j79680233276088_1_alg».proof.Proof.ClassifyR
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- What each region leaves in its output array: the layers' products and the classifier's log-softmax. -/
theorem regionValues : Cert.Chain.RegionValues :=
  ⟨Cert.KernelIdeal.Dense0.final, Cert.KernelIdeal.Dense1.final, Cert.KernelIdeal.Dense2.final,
    Cert.KernelIdeal.Dense3.final, Cert.KernelIdeal.Classify.final⟩

/-- From memories that agree on the arguments the kernel's result array ends at the classifier of the pooled
    features of the four layers, and so does the reference's: the reference's last stage is that classifier of its
    own pooled stage, and the kernel's boundaries carry the reference's stage values. -/
theorem algebraic : Cert.algebraic_KernelIdeal_ReferenceIdeal := by
  intro m ρ m' ρ' _ hagree
  refine ⟨fun c => Cert.KernelIdeal.Gen.W12 m ρ c (Proc.devRef .tc Cert.KernelIdeal.main_v102),
    Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v112_eq, Cert.ReferenceIdeal.ClassifyR.tail_eq, e0, e1, e2, e3, e4, e5, e6, e7, e8, e9, e10, e11, e12]
  exact (Cert.Chain.result m ρ regionValues c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
